-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_819200" .f32 0x35A3D70A#32 ((1 / 819200 : ℝ) : EReal)
  ∧ IdealRules.named_const.Statement Cert.KernelIdeal.κ "inv_819200" .f32 0x35A3D70A#32 ((1 / 819200 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4000x1024 : Shape := ⟨3, ![8, 4000, 1024]⟩
abbrev S5x800 : Shape := ⟨2, ![5, 800]⟩
abbrev S1024 : Shape := ⟨1, ![1024]⟩
abbrev S_ : Shape := ⟨0, ![]⟩

class Facts : Prop where
  bcast_S_S8x4000x1024 : S_.BroadcastsInDim S8x4000x1024 (![] : Fin 0 → Fin S8x4000x1024.rank)
  reducesTo_S8x4000x1024_S_d0_1_2 : S8x4000x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4000x1024 .f32) (main_arg1 : IVec S5x800 32) (main_arg2 : FVec F S1024 .f32) (main_arg3 : FVec F S1024 .f32) : IVec S_ 1 :=
  let main_v0 : FVec F S8x4000x1024 .f32 := Host.absf main_arg0
  let main_cst : FVec F S_ .f32 := constant S_ .f32 0x7F800000#32
  let main_v1 : FVec F S8x4000x1024 .f32 := broadcastInDim S8x4000x1024 ![] bcast_S_S8x4000x1024 main_cst
  let main_v2 : IVec S8x4000x1024 1 := cmpf .olt main_v0 main_v1
  let main_c : IVec S_ 1 := constantI S_ 1 1#1
  let main_v3 : IVec S_ 1 := (fun x v => Host.reduce IntOp.andi x v reducesTo_S8x4000x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4000x1024 : Shape := ⟨3, ![8, 4000, 1024]⟩
abbrev S5x800 : Shape := ⟨2, ![5, 800]⟩
abbrev S1024 : Shape := ⟨1, ![1024]⟩
abbrev S1x800x1024 : Shape := ⟨3, ![1, 800, 1024]⟩
abbrev S800x1024 : Shape := ⟨2, ![800, 1024]⟩
abbrev S800 : Shape := ⟨1, ![800]⟩
abbrev S800x1 : Shape := ⟨2, ![800, 1]⟩
abbrev S1 : Shape := ⟨1, ![1]⟩
abbrev S1x1 : Shape := ⟨2, ![1, 1]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8x4000x1024, .f32⟩
  | .hbm, ⟨1, _⟩ => ⟨S5x800, .i32⟩
  | .hbm, ⟨2, _⟩ => ⟨S1024, .f32⟩
  | .hbm, ⟨3, _⟩ => ⟨S1024, .f32⟩
  | .hbm, ⟨4, _⟩ => ⟨S8x4000x1024, .f32⟩
  | .local _ .vmem, ⟨0, _⟩ => ⟨S1x800x1024, .f32⟩
  | .local _ .vmem, ⟨1, _⟩ => ⟨S1x800x1024, .f32⟩
  | .local _ .vmem, ⟨2, _⟩ => ⟨S1024, .f32⟩
  | .local _ .vmem, ⟨3, _⟩ => ⟨S1024, .f32⟩
  | .local _ .vmem, ⟨4, _⟩ => ⟨S1x800x1024, .f32⟩
  | .local _ .vmem, ⟨5, _⟩ => ⟨S1x800x1024, .f32⟩
  | _, _ => ⟨S8x4000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x800x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x800x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x800x1024_S1x800x1024_0_0_0 : ∀ a, (![0, 0, 0] : Fin 3 → Nat) a + S1x800x1024.size a ≤ S1x800x1024.size a
  h_S1x800x1024 : 0 < S1x800x1024.numel
  shapeCasts_S1x800x1024_S800x1024 : S1x800x1024.ShapeCasts S800x1024
  reduces_S800x1024_S800 : S800x1024.Reduces [1] S800
  shapeCasts_S800_S800x1 : S800.ShapeCasts S800x1
  reduces_S800x1_S1 : S800x1.Reduces [0] S1
  shapeCasts_S1_S1x1 : S1.ShapeCasts S1x1
  broadcasts_S1x1_S800x1 : S1x1.Broadcasts S800x1
  inb_S1024_S1024_0 : ∀ a, (![0] : Fin 1 → Nat) a + S1024.size a ≤ S1024.size a
  h_S1024 : 0 < S1024.numel
  broadcasts_S800x1_S800x1024 : S800x1.Broadcasts S800x1024
  shapeCasts_S1024_S1x1024 : S1024.ShapeCasts S1x1024
  broadcasts_S1x1024_S800x1024 : S1x1024.Broadcasts S800x1024
  shapeCasts_S800x1024_S1x800x1024 : S800x1024.ShapeCasts S1x800x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x800x1024.size a ≤ S8x4000x1024.size a
  hwx0_0 : ∀ i : grid0.Coords, EltTy.bits .f32 = 32 ∨ (Rect.block (s := S8x4000x1024) S1x800x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x800x1024.size a ≤ S8x4000x1024.size a
  hwx0_3 : ∀ i : grid0.Coords, EltTy.bits .f32 = 32 ∨ (Rect.block (s := S8x4000x1024) S1x800x1024.size (cc0_transform_3 i) (hinb0_3 i)).WholeWords (EltTy.packing .f32)

variable [Facts₀]

abbrev win0_0 : Pipeline.Window sig grid0 :=
  Pipeline.Window.ofSpec (Memref.whole main_arg0) S1x800x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x800x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4000x1024 : Shape := ⟨3, ![8, 4000, 1024]⟩
abbrev S5x800 : Shape := ⟨2, ![5, 800]⟩
abbrev S1024 : Shape := ⟨1, ![1024]⟩
abbrev S_ : Shape := ⟨0, ![]⟩
abbrev S8x4000 : Shape := ⟨2, ![8, 4000]⟩
abbrev S8x4000x1 : Shape := ⟨3, ![8, 4000, 1]⟩
abbrev S8x5x800x1024 : Shape := ⟨4, ![8, 5, 800, 1024]⟩
abbrev S8x5 : Shape := ⟨2, ![8, 5]⟩
abbrev S8x5x1x1 : Shape := ⟨4, ![8, 5, 1, 1]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x4000x1024, .f32⟩
  | .hbm, ⟨1, _⟩ => ⟨S5x800, .i32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S8x4000, .f32⟩
  | .hbm, ⟨6, _⟩ => ⟨S8x4000x1, .f32⟩
  | .hbm, ⟨7, _⟩ => ⟨S_, .f32⟩
  | .hbm, ⟨8, _⟩ => ⟨S8x4000x1, .f32⟩
  | .hbm, ⟨9, _⟩ => ⟨S8x4000x1, .f32⟩
  | .hbm, ⟨10, _⟩ => ⟨S8x4000x1024, .f32⟩
  | .hbm, ⟨11, _⟩ => ⟨S8x4000x1024, .f32⟩
  | .hbm, ⟨12, _⟩ => ⟨S8x4000x1024, .f32⟩
  | .hbm, ⟨13, _⟩ => ⟨S_, .f32⟩
  | .hbm, ⟨14, _⟩ => ⟨S8x4000, .f32⟩
  | .hbm, ⟨15, _⟩ => ⟨S8x4000x1, .f32⟩
  | .hbm, ⟨16, _⟩ => ⟨S_, .f32⟩
  | .hbm, ⟨17, _⟩ => ⟨S8x4000x1, .f32⟩
  | .hbm, ⟨18, _⟩ => ⟨S8x4000x1, .f32⟩
  | .hbm, ⟨19, _⟩ => ⟨S8x4000x1024, .f32⟩
  | .hbm, ⟨20, _⟩ => ⟨S8x4000x1024, .f32⟩
  | .hbm, ⟨21, _⟩ => ⟨S_, .f32⟩
  | .hbm, ⟨22, _⟩ => ⟨S8x4000x1, .f32⟩
  | .hbm, ⟨23, _⟩ => ⟨S8x4000x1, .f32⟩
  | .hbm, ⟨24, _⟩ => ⟨S8x4000x1, .f32⟩
  | .hbm, ⟨25, _⟩ => ⟨S8x4000x1024, .f32⟩
  | .hbm, ⟨26, _⟩ => ⟨S8x4000x1024, .f32⟩
  | .hbm, ⟨27, _⟩ => ⟨S8x5x800x1024, .f32⟩
  | .hbm, ⟨28, _⟩ => ⟨S_, .f32⟩
  | .hbm, ⟨29, _⟩ => ⟨S8x5, .f32⟩
  | .hbm, ⟨30, _⟩ => ⟨S8x5x1x1, .f32⟩
  | .hbm, ⟨31, _⟩ => ⟨S_, .f32⟩
  | .hbm, ⟨32, _⟩ => ⟨S8x5x1x1, .f32⟩
  | .hbm, ⟨33, _⟩ => ⟨S8x5x1x1, .f32⟩
  | .hbm, ⟨34, _⟩ => ⟨S8x5x800x1024, .f32⟩
  | .hbm, ⟨35, _⟩ => ⟨S8x5x800x1024, .f32⟩
  | .hbm, ⟨36, _⟩ => ⟨S8x5x800x1024, .f32⟩
  | .hbm, ⟨37, _⟩ => ⟨S_, .f32⟩
  | .hbm, ⟨38, _⟩ => ⟨S8x5, .f32⟩
  | .hbm, ⟨39, _⟩ => ⟨S8x5x1x1, .f32⟩
  | .hbm, ⟨40, _⟩ => ⟨S_, .f32⟩
  | .hbm, ⟨41, _⟩ => ⟨S8x5x1x1, .f32⟩
  | .hbm, ⟨42, _⟩ => ⟨S8x5x1x1, .f32⟩
  | .hbm, ⟨43, _⟩ => ⟨S8x5x800x1024, .f32⟩
  | .hbm, ⟨44, _⟩ => ⟨S8x5x800x1024, .f32⟩
  | .hbm, ⟨45, _⟩ => ⟨S_, .f32⟩
  | .hbm, ⟨46, _⟩ => ⟨S8x5x1x1, .f32⟩
  | .hbm, ⟨47, _⟩ => ⟨S8x5x1x1, .f32⟩
  | .hbm, ⟨48, _⟩ => ⟨S8x5x1x1, .f32⟩
  | .hbm, ⟨49, _⟩ => ⟨S8x5x800x1024, .f32⟩
  | .hbm, ⟨50, _⟩ => ⟨S8x5x800x1024, .f32⟩
  | .hbm, ⟨51, _⟩ => ⟨S8x4000x1024, .f32⟩
  | .hbm, ⟨52, _⟩ => ⟨S_, .f32⟩
  | .hbm, ⟨53, _⟩ => ⟨S8x4000x1024, .f32⟩
  | .hbm, ⟨54, _⟩ => ⟨S8x4000x1024, .f32⟩
  | .hbm, ⟨55, _⟩ => ⟨S_, .f32⟩
  | .hbm, ⟨56, _⟩ => ⟨S8x4000x1024, .f32⟩
  | .hbm, ⟨57, _⟩ => ⟨S8x4000x1024, .f32⟩
  | .hbm, ⟨58, _⟩ => ⟨S8x4000x1024, .f32⟩
  | .hbm, ⟨59, _⟩ => ⟨S1x1x1024, .f32⟩
  | .hbm, ⟨60, _⟩ => ⟨S8x4000x1024, .f32⟩
  | .hbm, ⟨61, _⟩ => ⟨S8x4000x1024, .f32⟩
  | .hbm, ⟨62, _⟩ => ⟨S1x1x1024, .f32⟩
  | .hbm, ⟨63, _⟩ => ⟨S8x4000x1024, .f32⟩
  | .hbm, ⟨64, _⟩ => ⟨S8x4000x1024, .f32⟩
  | _, _ => ⟨S8x4000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  reducesTo_S8x4000x1024_S8x4000_d2 : S8x4000x1024.ReducesTo [2] S8x4000
  h_S_ : 0 < S_.numel
  bcast_S8x4000_S8x4000x1_0_1 : S8x4000.BroadcastsInDim S8x4000x1 (![0, 1] : Fin 2 → Fin S8x4000x1.rank)
  bcast_S_S8x4000x1 : S_.BroadcastsInDim S8x4000x1 (![] : Fin 0 → Fin S8x4000x1.rank)
  bcast_S8x4000x1_S8x4000x1024_0_1_2 : S8x4000x1.BroadcastsInDim S8x4000x1024 (![0, 1, 2] : Fin 3 → Fin S8x4000x1024.rank)
  shapeCasts_S8x4000x1024_S8x5x800x1024 : S8x4000x1024.ShapeCasts S8x5x800x1024
  reducesTo_S8x5x800x1024_S8x5_d2_3 : S8x5x800x1024.ReducesTo [2, 3] S8x5
  bcast_S8x5_S8x5x1x1_0_1 : S8x5.BroadcastsInDim S8x5x1x1 (![0, 1] : Fin 2 → Fin S8x5x1x1.rank)
  bcast_S_S8x5x1x1 : S_.BroadcastsInDim S8x5x1x1 (![] : Fin 0 → Fin S8x5x1x1.rank)
  bcast_S8x5x1x1_S8x5x800x1024_0_1_2_3 : S8x5x1x1.BroadcastsInDim S8x5x800x1024 (![0, 1, 2, 3] : Fin 4 → Fin S8x5x800x1024.rank)
  shapeCasts_S8x5x800x1024_S8x4000x1024 : S8x5x800x1024.ShapeCasts S8x4000x1024
  bcast_S_S8x4000x1024 : S_.BroadcastsInDim S8x4000x1024 (![] : Fin 0 → Fin S8x4000x1024.rank)
  bcast_S1024_S1x1x1024_2 : S1024.BroadcastsInDim S1x1x1024 (![2] : Fin 1 → Fin S1x1x1024.rank)
  bcast_S1x1x1024_S8x4000x1024_0_1_2 : S1x1x1024.BroadcastsInDim S8x4000x1024 (![0, 1, 2] : Fin 3 → Fin S8x4000x1024.rank)

variable [Facts₀]

class Facts : Prop extends Facts₀ where

variable [Facts]
-- ==== Proof.BlendSpec.lean ====
/-
  A layer norm over each token's features blended half and half with a layer norm over each group's
  tokens and features together, then scaled and shifted per feature.

  The input is an array x[b, t, d] of 8 batches, 4000 tokens and 1024 features; the 4000 tokens of a batch
  fall into 5 consecutive groups of 800. For one group, write X l k for its 800 x 1024 block.

  Two spellings of one value are stated here, over any finite index types for the rows and the features:

  * `onePass`: the moments are taken from the sums of X and of X * X (the variance as the mean of the
    squares less the square of the mean), the means enter as products with the reciprocal counts, and the
    two norms are blended BEFORE the centred value is formed: (X * scale - shift) * w + b.
  * `twoPass`: the mean first, then the mean of the squared deviations, the means as quotients by the
    counts, and each norm formed separately before the blend: (h * group + h * token) * w + b.

  `blend` is the whole-array function, index by index, in the first spelling.
-/
import Idealize.ShloMosaic.PureOps.Ideal
import Idealize.ShloMosaic.Lib.ValueIdx

noncomputable section

namespace Cert.BlendNorm

open Idealize.ShloMosaic Idealize.ShloMosaic.ValueIdx

/-- One half. -/
abbrev half : EReal := Ideal.ofBits .f32 0x3F000000#32
/-- The stabiliser added to a variance. -/
abbrev eps : EReal := Ideal.ofBits .f32 0x3727C5AC#32
/-- The reciprocal of the feature count, a power of two. -/
abbrev invD : EReal := Ideal.ofBits .f32 0x3A800000#32
/-- The reciprocal of a group's element count, the exact rational. -/
abbrev invN : EReal := ((1 / 819200 : ℝ) : EReal)
/-- The feature count. -/
abbrev cntD : EReal := Ideal.ofBits .f32 0x44800000#32
/-- A group's element count. -/
abbrev cntN : EReal := Ideal.ofBits .f32 0x49480000#32

section block

variable {ι κ : Type} [Fintype ι] [Fintype κ]

/-- The sum of a row. -/
def rowSum (X : ι → κ → EReal) (l : ι) : EReal := ∑ k, X l k
/-- The sum of a row's squares. -/
def rowSumSq (X : ι → κ → EReal) (l : ι) : EReal := ∑ k, X l k * X l k
/-- The sum of the block, row sums added up. -/
def blockSum (X : ι → κ → EReal) : EReal := ∑ l, rowSum X l
/-- The sum of the block's squares, row sums added up. -/
def blockSumSq (X : ι → κ → EReal) : EReal := ∑ l, rowSumSq X l

/-- A row's mean, as the sum times the reciprocal count. -/
def rowMean₁ (X : ι → κ → EReal) (l : ι) : EReal := rowSum X l * invD
/-- A row's reciprocal standard deviation, the variance as E[X²] - E[X]². -/
def rowRstd₁ (X : ι → κ → EReal) (l : ι) : EReal :=
  Ideal.rsqrt (rowSumSq X l * invD - rowMean₁ X l * rowMean₁ X l + eps)
/-- The block's mean, as the sum times the reciprocal count. -/
def blockMean₁ (X : ι → κ → EReal) : EReal := blockSum X * invN
/-- The block's reciprocal standard deviation, the variance as E[X²] - E[X]². -/
def blockRstd₁ (X : ι → κ → EReal) : EReal :=
  Ideal.rsqrt (blockSumSq X * invN - blockMean₁ X * blockMean₁ X + eps)

/-- The blended norm in one pass: the scale and the shift are blended first. -/
def onePass (X : ι → κ → EReal) (w b : EReal) (l : ι) (d : κ) : EReal :=
  (X l d * (half * rowRstd₁ X l + half * blockRstd₁ X)
      - (half * rowMean₁ X l * rowRstd₁ X l + half * blockMean₁ X * blockRstd₁ X)) * w + b

/-- A row's mean, as the sum over the count. -/
def rowMean₂ (X : ι → κ → EReal) (l : ι) : EReal := Ideal.div (∑ k, X l k) cntD
/-- A row's variance, as the mean squared deviation. -/
def rowVar₂ (X : ι → κ → EReal) (l : ι) : EReal :=
  Ideal.div (∑ k, (X l k - rowMean₂ X l) * (X l k - rowMean₂ X l)) cntD
/-- The block's mean, as the sum over the count. -/
def blockMean₂ (X : ι → κ → EReal) : EReal := Ideal.div (∑ l, ∑ k, X l k) cntN
/-- The block's variance, as the mean squared deviation. -/
def blockVar₂ (X : ι → κ → EReal) : EReal :=
  Ideal.div (∑ l, ∑ k, (X l k - blockMean₂ X) * (X l k - blockMean₂ X)) cntN

/-- The blended norm in two passes: each norm is formed, then blended. -/
def twoPass (X : ι → κ → EReal) (w b : EReal) (l : ι) (d : κ) : EReal :=
  (half * ((X l d - blockMean₂ X) * Ideal.rsqrt (blockVar₂ X + eps))
      + half * ((X l d - rowMean₂ X l) * Ideal.rsqrt (rowVar₂ X l + eps))) * w + b

end block

/-- Token `l` of group `g` among a batch's 4000 tokens. -/
def member (g : Fin 5) (l : Fin 800) : Fin 4000 := ⟨g.val * 800 + l.val, by omega⟩

/-- Group `g` of batch `bb` as an 800 x 1024 block. -/
def groupBlock (x : (⟨3, ![8, 4000, 1024]⟩ : Shape).Idx → EReal) (bb : Fin 8) (g : Fin 5) : Fin 800 → Fin 1024 → EReal :=
  fun l k => x (ix3 bb (member g l) k)

/-- The blended norm at batch `bb`, group `g`, token `l` of the group, feature `d`. -/
def blendAt (x : (⟨3, ![8, 4000, 1024]⟩ : Shape).Idx → EReal) (w b : (⟨1, ![1024]⟩ : Shape).Idx → EReal)
    (bb : Fin 8) (g : Fin 5) (l : Fin 800) (d : Fin 1024) : EReal :=
  onePass (groupBlock x bb g) (w (ix1 d)) (b (ix1 d)) l d

/-- The group a token belongs to. -/
def groupOf (t : Fin 4000) : Fin 5 := ⟨t.val / 800, by omega⟩
/-- A token's place in its group. -/
def placeOf (t : Fin 4000) : Fin 800 := ⟨t.val % 800, by omega⟩

theorem member_groupOf_placeOf (t : Fin 4000) : member (groupOf t) (placeOf t) = t :=
  Fin.ext (by show t.val / 800 * 800 + t.val % 800 = t.val; omega)

theorem groupOf_member (g : Fin 5) (l : Fin 800) : groupOf (member g l) = g :=
  Fin.ext (by show (g.val * 800 + l.val) / 800 = g.val; omega)

theorem placeOf_member (g : Fin 5) (l : Fin 800) : placeOf (member g l) = l :=
  Fin.ext (by show (g.val * 800 + l.val) % 800 = l.val; omega)

/-- The blended norm at batch `bb`, token `t`, feature `d`. -/
def blendTok (x : (⟨3, ![8, 4000, 1024]⟩ : Shape).Idx → EReal) (w b : (⟨1, ![1024]⟩ : Shape).Idx → EReal)
    (bb : Fin 8) (t : Fin 4000) (d : Fin 1024) : EReal :=
  blendAt x w b bb (groupOf t) (placeOf t) d

/-- The whole result array as one function of the three argument arrays. -/
def blend (x : (⟨3, ![8, 4000, 1024]⟩ : Shape).Idx → EReal) (w b : (⟨1, ![1024]⟩ : Shape).Idx → EReal) :
    (⟨3, ![8, 4000, 1024]⟩ : Shape).Idx → EReal :=
  fun i => blendTok x w b (i 0) (i 1) (i 2)

theorem blend_ix3 (x : (⟨3, ![8, 4000, 1024]⟩ : Shape).Idx → EReal) (w b : (⟨1, ![1024]⟩ : Shape).Idx → EReal)
    (bb : Fin 8) (t : Fin 4000) (d : Fin 1024) : blend x w b (ix3 bb t d) = blendTok x w b bb t d := rfl

end Cert.BlendNorm

end
-- ==== Proof.KernelBlock.lean ====
/-
  What one grid point leaves in its output block, as the one-pass spelling of the blended norm.

  The body loads an 800 x 1024 block P0 of the input (with a leading unit axis) and the two feature vectors
  P1, P2. Its row sums are lane reductions of the block and of its square; the group's sums are a second
  reduction, down the 800 rows, of those row sums. Read at (0, l, d) each reduction is a finite sum over its
  axis, and what is left is `onePass` of the block, of P1 d and of P2 d, at row l and feature d.
-/
import proofs.«168838_j57166014710001_2_alg».proof.Proof.KernelValueP
import proofs.«168838_j57166014710001_2_alg».proof.Proof.BlendSpec
import Idealize.ShloMosaic.PureOps.Ideal.Laws
import Idealize.ShloMosaic.PureOps.IdealRules

noncomputable section

namespace Cert.BlendNorm.Kernel

open Idealize.ShloMosaic Idealize.ShloMosaic.ValueIdx Cert.KernelIdeal Cert.KernelIdeal.Gen Cert.BlendNorm
open Cert.KernelIdeal.ValueP (E3 canon3_eq ix3_0 ix3_1 ix3_2 ix3_3 ix3_4 ix3_5 ix3_6 ix3_7 ix3_8 ix3_9 ix3_10 ix3_11 ix3_12 ix3_13 ix3_14 ix3_15 ix3_16)

/-- A sum over the features of row `l` of an 800 x 1024 array. -/
theorem featureSum_read (v : FVec Ideal S800x1024 .f32) (h : S800x1024.Reduces [1] S800) (hφ : FKind.Formats .f32)
    (hacc : (0x00000000#32 : BitVec 32) = FKind.add.neutral .f32 hφ) (l : Fin 800) :
    multiReduction .add [1] S800 v 0x00000000#32 h hφ hacc (ix1 l) = ∑ k : Fin 1024, v (ix2 l k) := by
  refine (Ideal.multiReduction_add_single v 0x00000000#32 h hφ hacc (ix1 l)).trans ?_
  exact Finset.sum_congr rfl fun k _ => congrArg v (funext fun a => Fin.ext (by match a with | ⟨0, _⟩ => rfl | ⟨1, _⟩ => rfl))

/-- A sum down the 800 entries of a vector set up as a column. -/
theorem tokenSum_read (v : FVec Ideal S800 .f32) (hc : S800.ShapeCasts S800x1) (h : S800x1.Reduces [0] S1) (hφ : FKind.Formats .f32)
    (hacc : (0x00000000#32 : BitVec 32) = FKind.add.neutral .f32 hφ) (j : S1.Idx) :
    multiReduction .add [0] S1 (shapeCast S800x1 v hc) 0x00000000#32 h hφ hacc j = ∑ l : Fin 800, v (ix1 l) := by
  refine (Ideal.multiReduction_add_single (shapeCast S800x1 v hc) 0x00000000#32 h hφ hacc j).trans ?_
  refine Finset.sum_congr rfl fun l _ => ?_
  refine shapeCast_apply v hc _ (ix1 l) ?_
  rw [Shape.rowMajor_val_one, Shape.rowMajor_val_two]
  have hj : (j 0).val < 1 := (j 0).isLt
  show l.val = l.val * 1 + (j 0).val
  omega

/-- The block without its leading unit axis, read at (l, k). -/
theorem dropUnit_read (P0 : Vec Ideal S1x800x1024 .f32) (hc : S1x800x1024.ShapeCasts S800x1024) (l : Fin 800) (k : Fin 1024) :
    shapeCast S800x1024 P0 hc (ix2 l k) = P0 (ix3 (0 : Fin 1) l k) := by
  refine shapeCast_apply P0 hc _ _ ?_
  rw [Shape.rowMajor_val_two, Shape.rowMajor_val_three]
  show (0 * 800 + l.val) * 1024 + k.val = l.val * 1024 + k.val
  omega

/-- The reciprocal of a group's element count is read as the exact rational 1/819200. -/
theorem named_invN : Named.named (F := Ideal) Cert.KernelIdeal.κ "inv_819200" (φ := .f32) 0x35A3D70A#32 = invN :=
  IdealRules.named_const.ideal_named_scalar _ _ _ _ rfl

/-- The one-pass blended norm as a function of the datum, the row's sum of squares and sum, the block's sum of
    squares and sum, the weight and the bias. -/
def fromSums (p s2 s t2 t w b : EReal) : EReal :=
  (p * (half * Ideal.rsqrt (s2 * invD - s * invD * (s * invD) + eps)
        + half * Ideal.rsqrt (t2 * invN - t * invN * (t * invN) + eps))
      - (half * (s * invD) * Ideal.rsqrt (s2 * invD - s * invD * (s * invD) + eps)
        + half * (t * invN) * Ideal.rsqrt (t2 * invN - t * invN * (t * invN) + eps))) * w + b

/-- The same function spelt with the exact instance's float operations, in the order the body applies them. -/
def fromSumsF (p s2 s t2 t w b : Ideal .f32) : Ideal .f32 :=
  FloatOps.addf (FloatOps.mulf (FloatOps.subf (FloatOps.mulf p (FloatOps.addf (FloatOps.mulf (FloatOps.ofBits (F := Ideal) .f32 0x3F000000#32) (FloatOps.rsqrt (FloatOps.addf (FloatOps.subf (FloatOps.mulf s2 (FloatOps.ofBits (F := Ideal) .f32 0x3A800000#32)) (FloatOps.mulf (FloatOps.mulf s (FloatOps.ofBits (F := Ideal) .f32 0x3A800000#32)) (FloatOps.mulf s (FloatOps.ofBits (F := Ideal) .f32 0x3A800000#32)))) (FloatOps.ofBits (F := Ideal) .f32 0x3727C5AC#32)))) (FloatOps.mulf (FloatOps.ofBits (F := Ideal) .f32 0x3F000000#32) (FloatOps.rsqrt (FloatOps.addf (FloatOps.subf (FloatOps.mulf t2 invN) (FloatOps.mulf (FloatOps.mulf t invN) (FloatOps.mulf t invN))) (FloatOps.ofBits (F := Ideal) .f32 0x3727C5AC#32)))))) (FloatOps.addf (FloatOps.mulf (FloatOps.mulf (FloatOps.ofBits (F := Ideal) .f32 0x3F000000#32) (FloatOps.mulf s (FloatOps.ofBits (F := Ideal) .f32 0x3A800000#32))) (FloatOps.rsqrt (FloatOps.addf (FloatOps.subf (FloatOps.mulf s2 (FloatOps.ofBits (F := Ideal) .f32 0x3A800000#32)) (FloatOps.mulf (FloatOps.mulf s (FloatOps.ofBits (F := Ideal) .f32 0x3A800000#32)) (FloatOps.mulf s (FloatOps.ofBits (F := Ideal) .f32 0x3A800000#32)))) (FloatOps.ofBits (F := Ideal) .f32 0x3727C5AC#32)))) (FloatOps.mulf (FloatOps.mulf (FloatOps.ofBits (F := Ideal) .f32 0x3F000000#32) (FloatOps.mulf t invN)) (FloatOps.rsqrt (FloatOps.addf (FloatOps.subf (FloatOps.mulf t2 invN) (FloatOps.mulf (FloatOps.mulf t invN) (FloatOps.mulf t invN))) (FloatOps.ofBits (F := Ideal) .f32 0x3727C5AC#32)))))) w) b

theorem fromSumsF_eq (p s2 s t2 t w b : EReal) : fromSumsF p s2 s t2 t w b = fromSums p s2 s t2 t w b := rfl

theorem onePass_eq_fromSums {ι κ : Type} [Fintype ι] [Fintype κ] (X : ι → κ → EReal) (w b : EReal) (l : ι) (d : κ) :
    onePass X w b l d = fromSums (X l d) (rowSumSq X l) (rowSum X l) (blockSumSq X) (blockSum X) w b := rfl

theorem fromSums_congr {p s2 s t2 t w b s2' s' t2' t' : EReal} (h1 : s2 = s2') (h2 : s = s') (h3 : t2 = t2')
    (h4 : t = t') : fromSums p s2 s t2 t w b = fromSums p s2' s' t2' t' w b := by
  subst h1 h2 h3 h4; rfl

section sums

variable (P0 : Vec Ideal S1x800x1024 .f32)

/-- The lane reduction of the block is its row sums. -/
theorem rowSum_of_block (hc : S1x800x1024.ShapeCasts S800x1024) (h : S800x1024.Reduces [1] S800) (hφ : FKind.Formats .f32)
    (hacc : (0x00000000#32 : BitVec 32) = FKind.add.neutral .f32 hφ) (l : Fin 800) :
    multiReduction (F := Ideal) .add [1] S800 (shapeCast S800x1024 P0 hc) 0x00000000#32 h hφ hacc (ix1 l)
      = rowSum (fun (l' : Fin 800) (k : Fin 1024) => P0 (ix3 (0 : Fin 1) l' k)) l :=
  (featureSum_read _ h hφ hacc l).trans (Finset.sum_congr rfl fun k _ => dropUnit_read P0 hc l k)

/-- The lane reduction of the squared block is its rows' sums of squares. -/
theorem rowSumSq_of_block (hc : S1x800x1024.ShapeCasts S800x1024) (h : S800x1024.Reduces [1] S800) (hφ : FKind.Formats .f32)
    (hacc : (0x00000000#32 : BitVec 32) = FKind.add.neutral .f32 hφ) (l : Fin 800) :
    multiReduction (F := Ideal) .add [1] S800 (mulf (shapeCast S800x1024 P0 hc) (shapeCast S800x1024 P0 hc)) 0x00000000#32 h hφ hacc (ix1 l)
      = rowSumSq (fun (l' : Fin 800) (k : Fin 1024) => P0 (ix3 (0 : Fin 1) l' k)) l :=
  (featureSum_read _ h hφ hacc l).trans (Finset.sum_congr rfl fun k _ => by
    show shapeCast S800x1024 P0 hc (ix2 l k) * shapeCast S800x1024 P0 hc (ix2 l k) = _
    rw [dropUnit_read P0 hc l k])

/-- The reduction of the row sums down the rows is the block's sum. -/
theorem blockSum_of_block (hc : S1x800x1024.ShapeCasts S800x1024) (h : S800x1024.Reduces [1] S800) (hφ : FKind.Formats .f32)
    (hacc : (0x00000000#32 : BitVec 32) = FKind.add.neutral .f32 hφ)
    (hc' : S800.ShapeCasts S800x1) (h' : S800x1.Reduces [0] S1) (hφ' : FKind.Formats .f32)
    (hacc' : (0x00000000#32 : BitVec 32) = FKind.add.neutral .f32 hφ') (j : S1.Idx) :
    multiReduction (F := Ideal) .add [0] S1 (shapeCast S800x1
        (multiReduction (F := Ideal) .add [1] S800 (shapeCast S800x1024 P0 hc) 0x00000000#32 h hφ hacc) hc') 0x00000000#32 h' hφ' hacc' j
      = blockSum (fun (l' : Fin 800) (k : Fin 1024) => P0 (ix3 (0 : Fin 1) l' k)) :=
  (tokenSum_read _ hc' h' hφ' hacc' j).trans (Finset.sum_congr rfl fun l _ => rowSum_of_block P0 hc h hφ hacc l)

/-- The reduction of the rows' sums of squares down the rows is the block's sum of squares. -/
theorem blockSumSq_of_block (hc : S1x800x1024.ShapeCasts S800x1024) (h : S800x1024.Reduces [1] S800) (hφ : FKind.Formats .f32)
    (hacc : (0x00000000#32 : BitVec 32) = FKind.add.neutral .f32 hφ)
    (hc' : S800.ShapeCasts S800x1) (h' : S800x1.Reduces [0] S1) (hφ' : FKind.Formats .f32)
    (hacc' : (0x00000000#32 : BitVec 32) = FKind.add.neutral .f32 hφ') (j : S1.Idx) :
    multiReduction (F := Ideal) .add [0] S1 (shapeCast S800x1
        (multiReduction (F := Ideal) .add [1] S800 (mulf (shapeCast S800x1024 P0 hc) (shapeCast S800x1024 P0 hc)) 0x00000000#32 h hφ hacc) hc')
        0x00000000#32 h' hφ' hacc' j
      = blockSumSq (fun (l' : Fin 800) (k : Fin 1024) => P0 (ix3 (0 : Fin 1) l' k)) :=
  (tokenSum_read _ hc' h' hφ' hacc' j).trans (Finset.sum_congr rfl fun l _ => rowSumSq_of_block P0 hc h hφ hacc l)

end sums

/-- The block a point leaves, at (0, l, d), is the one-pass blended norm of the loaded block. -/
theorem block_at (P0 : Vec Ideal S1x800x1024 .f32) (P1 P2 : Vec Ideal S1024 .f32) (l : Fin 800) (d : Fin 1024) :
    E3 (F := Ideal) P0 P1 P2 (ix3 (0 : Fin 1) l d)
      = onePass (fun l' k => P0 (ix3 (0 : Fin 1) l' k)) (P1 (ix1 d)) (P2 (ix1 d)) l d := by
  have i0 : ix3_0 (ix3 (0 : Fin 1) l d) = ix3 (0 : Fin 1) l d :=
    funext fun a => Fin.ext (by match a with | ⟨0, _⟩ => rfl | ⟨1, _⟩ => rfl | ⟨2, _⟩ => rfl)
  have i1 : ix3_1 (ix3 (0 : Fin 1) l d) = ix1 l := funext fun a => Fin.ext (by match a with | ⟨0, _⟩ => rfl)
  have i2 : ix3_2 (ix3 (0 : Fin 1) l d) = ix1 l := funext fun a => Fin.ext (by match a with | ⟨0, _⟩ => rfl)
  have i3 : ix3_3 (ix3 (0 : Fin 1) l d) = ix1 l := funext fun a => Fin.ext (by match a with | ⟨0, _⟩ => rfl)
  have i7 : ix3_7 (ix3 (0 : Fin 1) l d) = ix1 l := funext fun a => Fin.ext (by match a with | ⟨0, _⟩ => rfl)
  have i8 : ix3_8 (ix3 (0 : Fin 1) l d) = ix1 l := funext fun a => Fin.ext (by match a with | ⟨0, _⟩ => rfl)
  have i9 : ix3_9 (ix3 (0 : Fin 1) l d) = ix1 l := funext fun a => Fin.ext (by match a with | ⟨0, _⟩ => rfl)
  have i10 : ix3_10 (ix3 (0 : Fin 1) l d) = ix1 l := funext fun a => Fin.ext (by match a with | ⟨0, _⟩ => rfl)
  have i15 : ix3_15 (ix3 (0 : Fin 1) l d) = ix1 d := funext fun a => Fin.ext (by match a with | ⟨0, _⟩ => rfl)
  have i16 : ix3_16 (ix3 (0 : Fin 1) l d) = ix1 d := funext fun a => Fin.ext (by match a with | ⟨0, _⟩ => rfl)
  have i4 : ix3_4 (ix3 (0 : Fin 1) l d) = ix1 (0 : Fin 1) := funext fun a => Fin.ext (by match a with | ⟨0, _⟩ => rfl)
  have i5 : ix3_5 (ix3 (0 : Fin 1) l d) = ix1 (0 : Fin 1) := funext fun a => Fin.ext (by match a with | ⟨0, _⟩ => rfl)
  have i6 : ix3_6 (ix3 (0 : Fin 1) l d) = ix1 (0 : Fin 1) := funext fun a => Fin.ext (by match a with | ⟨0, _⟩ => rfl)
  have i11 : ix3_11 (ix3 (0 : Fin 1) l d) = ix1 (0 : Fin 1) := funext fun a => Fin.ext (by match a with | ⟨0, _⟩ => rfl)
  have i12 : ix3_12 (ix3 (0 : Fin 1) l d) = ix1 (0 : Fin 1) := funext fun a => Fin.ext (by match a with | ⟨0, _⟩ => rfl)
  have i13 : ix3_13 (ix3 (0 : Fin 1) l d) = ix1 (0 : Fin 1) := funext fun a => Fin.ext (by match a with | ⟨0, _⟩ => rfl)
  have i14 : ix3_14 (ix3 (0 : Fin 1) l d) = ix1 (0 : Fin 1) := funext fun a => Fin.ext (by match a with | ⟨0, _⟩ => rfl)
  simp only [E3]
  rw [i0, i1, i2, i3, i4, i5, i6, i7, i8, i9, i10, i11, i12, i13, i14, i15, i16, named_invN]
  change fromSumsF (P0 (ix3 (0 : Fin 1) l d))
      (multiReduction .add [1] S800 (mulf (shapeCast S800x1024 P0 shapeCasts_S1x800x1024_S800x1024)
        (shapeCast S800x1024 P0 shapeCasts_S1x800x1024_S800x1024)) 0x00000000#32 reduces_S800x1024_S800 (.inl rfl) rfl (ix1 l))
      (multiReduction .add [1] S800 (shapeCast S800x1024 P0 shapeCasts_S1x800x1024_S800x1024) 0x00000000#32
        reduces_S800x1024_S800 (.inl rfl) rfl (ix1 l))
      (multiReduction .add [0] S1 (shapeCast S800x1 (multiReduction .add [1] S800 (mulf (shapeCast S800x1024 P0 shapeCasts_S1x800x1024_S800x1024)
        (shapeCast S800x1024 P0 shapeCasts_S1x800x1024_S800x1024)) 0x00000000#32 reduces_S800x1024_S800 (.inl rfl) rfl) shapeCasts_S800_S800x1)
        0x00000000#32 reduces_S800x1_S1 (.inl rfl) rfl (ix1 (0 : Fin 1)))
      (multiReduction .add [0] S1 (shapeCast S800x1 (multiReduction .add [1] S800 (shapeCast S800x1024 P0 shapeCasts_S1x800x1024_S800x1024)
        0x00000000#32 reduces_S800x1024_S800 (.inl rfl) rfl) shapeCasts_S800_S800x1)
        0x00000000#32 reduces_S800x1_S1 (.inl rfl) rfl (ix1 (0 : Fin 1)))
      (P1 (ix1 d)) (P2 (ix1 d)) = _
  refine ((fromSumsF_eq _ _ _ _ _ _ _).trans (fromSums_congr ?_ ?_ ?_ ?_)).trans
    (onePass_eq_fromSums (fun (l' : Fin 800) (k : Fin 1024) => P0 (ix3 (0 : Fin 1) l' k)) (P1 (ix1 d)) (P2 (ix1 d)) l d).symm
  · exact rowSumSq_of_block P0 _ _ _ _ l
  · exact rowSum_of_block P0 _ _ _ _ l
  · exact blockSumSq_of_block P0 _ _ _ _ _ _ _ _ _
  · exact blockSum_of_block P0 _ _ _ _ _ _ _ _ _

end Cert.BlendNorm.Kernel

end
-- ==== Proof.KernelValue.lean ====
/-
  The idealized kernel's result array is the blended norm of its argument arrays.

  The grid has one point per batch and group. Point (bb, g) reads rows g*800 … g*800+799 of batch bb of the
  input, all of the weight and of the bias, and writes the same rows of the output. What it writes at row l,
  feature d of its block is the one-pass blended norm of the block it read (the block lemma), so it is the
  whole-array function `blend` at batch bb, token g*800 + l, feature d. The 40 blocks tile the output, so the
  output after the run is `blend` everywhere.
-/
import proofs.«168838_j57166014710001_2_alg».proof.Proof.KernelBlock

noncomputable section

namespace Cert.BlendNorm.Kernel

open Idealize.ShloMosaic Idealize.ShloMosaic.ValueIdx Idealize.ShloMosaic.TcCoe Idealize.SL.Sem
open Cert.KernelIdeal Cert.KernelIdeal.Gen Cert.BlendNorm
open Idealize.ShloMosaic.Pipeline (Dat)
open Cert.KernelIdeal.ValueP (E3 canon3_eq flushed3 run_blocks)

theorem offs3 : (![0, 0, 0] : Fin 3 → Nat) = fun _ => 0 := funext fun a => by fin_cases a <;> rfl
theorem offs1 : (![0] : Fin 1 → Nat) = fun _ => 0 := funext fun a => by fin_cases a <;> rfl

/-- One point's output block at (u, l, d), when its three loaded blocks are group g of batch bb of X, all of
    W and all of B: the blended norm of X, W, B at batch bb, group g, place l, feature d. -/
theorem point_value (x0 : Vec Ideal S1x800x1024 .f32) (x1 x2 : Vec Ideal S1024 .f32)
    (X : S8x4000x1024.Idx → EReal) (W B : S1024.Idx → EReal) (bb : Fin 8) (g : Fin 5)
    (h0 : ∀ (l : Fin 800) (k : Fin 1024), x0 (ix3 (0 : Fin 1) l k) = X (ix3 bb (member g l) k))
    (h1 : ∀ k : Fin 1024, x1 (ix1 k) = W (ix1 k)) (h2 : ∀ k : Fin 1024, x2 (ix1 k) = B (ix1 k))
    (u : Fin 1) (l : Fin 800) (d : Fin 1024) :
    out0_3 x0 x1 x2 (ix3 u l d) = blendAt X W B bb g l d := by
  have hu : u = (0 : Fin 1) := Subsingleton.elim _ _
  subst hu
  unfold out0_3
  refine (canon3_eq (F := Ideal) (View.ld x0 r0_0) (View.ld x1 r0_1) (View.ld x2 r0_1) _).trans ?_
  rw [View.ld_unit_zero (S := S1x800x1024) offs3, View.ld_unit_zero (S := S1024) offs1,
    View.ld_unit_zero (S := S1024) offs1]
  rw [block_at]
  have e : (fun (l' : Fin 800) (k : Fin 1024) => x0 (ix3 (0 : Fin 1) l' k)) = groupBlock X bb g :=
    funext fun l' => funext fun k => h0 l' k
  rw [e, h1, h2]
  rfl

variable (m : (ℓ : Loc nD τ sig) → Buf (Elt Ideal) ℓ) (ρ : Dev nD → PrngReg)

/-- The printed index maps over the 40 points: the input window moves with the output window, the last block
    coordinate is always 0, the weight's and the bias's block is always block 0, and the output's block
    coordinates are a batch and a group. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 1) = 0
    ∧ win0_2.index t (0 : Fin 1) = 0
    ∧ win0_3.index t (0 : Fin 3) < 8
    ∧ win0_3.index t (1 : Fin 3) < 5 :=
  (by decide +kernel : ∀ t : Fin grid0.N, _)

/-- Every batch and group is some point's output block. -/
theorem idx_onto : ∀ (q0 : Fin 8) (q1 : Fin 5), ∃ t : Fin cfg0.N, win0_3.index t = ![q0.val, q1.val, 0] :=
  (by decide +kernel : ∀ (q0 : Fin 8) (q1 : Fin 5), ∃ t : Fin grid0.N, win0_3.index t = ![q0.val, q1.val, 0])

/-- What point t writes back is block t of the blended norm of the argument arrays. -/
theorem flushed_eq (c : Dev nD) (t : Fin cfg0.N) :
    (dats m 0 c).flushed 3 t = ((cfg0.win 3).blk t).view.read (Elt Ideal)
      (blend (V m c main_arg0) (V m c main_arg2) (V m c main_arg3)) := by
  show (cfg0.win 3).cut (grid0.coords t) ((dats m 0 c).after 3 t) = _
  rw [after0_3]
  obtain ⟨e00, e01, e02, e32, e1, e2, b0, b1⟩ := idx_facts t
  funext j
  have hj0 : (j 0).val < 1 := (j 0).isLt
  have hj1 : (j 1).val < 800 := (j 1).isLt
  have hj2 : (j 2).val < 1024 := (j 2).isLt
  show out0_3 (iblk m c 0 t) (iblk m c 1 t) (iblk m c 2 t) j
    = blend (V m c main_arg0) (V m c main_arg2) (V m c main_arg3) (((cfg0.win 3).blk t).view.emb j)
  have hjeq : (j : S1x800x1024.Idx) = ix3 (⟨(j 0).val, hj0⟩ : Fin 1) (⟨(j 1).val, hj1⟩ : Fin 800) (⟨(j 2).val, hj2⟩ : Fin 1024) :=
    funext fun a => Fin.ext (by match a with | ⟨0, _⟩ => rfl | ⟨1, _⟩ => rfl | ⟨2, _⟩ => rfl)
  have hemb : ((cfg0.win 3).blk t).view.emb j
      = ix3 (⟨win0_3.index t (0 : Fin 3), b0⟩ : Fin 8)
          (member (⟨win0_3.index t (1 : Fin 3), b1⟩ : Fin 5) (⟨(j 1).val, hj1⟩ : Fin 800)) (⟨(j 2).val, hj2⟩ : Fin 1024) := by
    funext a; apply Fin.ext
    match a with
    | ⟨0, _⟩ => show win0_3.index t (0 : Fin 3) * 1 + 1 * (j 0).val = win0_3.index t (0 : Fin 3); omega
    | ⟨1, _⟩ => show win0_3.index t (1 : Fin 3) * 800 + 1 * (j 1).val = win0_3.index t (1 : Fin 3) * 800 + (j 1).val; omega
    | ⟨2, _⟩ => show win0_3.index t (2 : Fin 3) * 1024 + 1 * (j 2).val = (j 2).val; omega
  have h0 : ∀ (l : Fin 800) (k : Fin 1024), iblk m c 0 t (ix3 (0 : Fin 1) l k)
      = V m c main_arg0 (ix3 (⟨win0_3.index t (0 : Fin 3), b0⟩ : Fin 8) (member (⟨win0_3.index t (1 : Fin 3), b1⟩ : Fin 5) l) k) := by
    intro l k
    show V m c main_arg0 (((cfg0.win 0).blk t).view.emb (ix3 (0 : Fin 1) l k)) = _
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 800 + 1 * l.val = win0_3.index t (1 : Fin 3) * 800 + l.val; omega
    | ⟨2, _⟩ => show win0_0.index t (2 : Fin 3) * 1024 + 1 * k.val = k.val; omega
  have h1 : ∀ k : Fin 1024, iblk m c 1 t (ix1 k) = V m c main_arg2 (ix1 k) := by
    intro k
    show V m c main_arg2 (((cfg0.win 1).blk t).view.emb (ix1 k)) = _
    refine congrArg (V m c main_arg2) (funext fun a => Fin.ext ?_)
    match a with
    | ⟨0, _⟩ => show win0_1.index t (0 : Fin 1) * 1024 + 1 * k.val = k.val; omega
  have h2 : ∀ k : Fin 1024, iblk m c 2 t (ix1 k) = V m c main_arg3 (ix1 k) := by
    intro k
    show V m c main_arg3 (((cfg0.win 2).blk t).view.emb (ix1 k)) = _
    refine congrArg (V m c main_arg3) (funext fun a => Fin.ext ?_)
    match a with
    | ⟨0, _⟩ => show win0_2.index t (0 : Fin 1) * 1024 + 1 * k.val = k.val; omega
  rw [hemb, blend_ix3]
  unfold blendTok
  rw [groupOf_member, placeOf_member]
  refine (congrArg (out0_3 (iblk m c 0 t) (iblk m c 1 t) (iblk m c 2 t)) hjeq).trans ?_
  exact point_value (iblk m c 0 t) (iblk m c 1 t) (iblk m c 2 t) (V m c main_arg0) (V m c main_arg2) (V m c main_arg3)
    (⟨win0_3.index t (0 : Fin 3), b0⟩ : Fin 8) (⟨win0_3.index t (1 : Fin 3), b1⟩ : Fin 5) h0 h1 h2
    (⟨(j 0).val, hj0⟩ : Fin 1) (⟨(j 1).val, hj1⟩ : Fin 800) (⟨(j 2).val, hj2⟩ : Fin 1024)

/-- An index of the output is in point t's block iff each coordinate is in the block's range on its axis. -/
theorem mem_blk (t : Fin cfg0.N) (i : S8x4000x1024.Idx) :
    i ∈ ((cfg0.win 3).blk t).view.set ↔ ∀ a : Fin 3, win0_3.index t a * S1x800x1024.size a ≤ (i a).val
      ∧ (i a).val < win0_3.index t a * S1x800x1024.size a + S1x800x1024.size a := by
  show i ∈ ((View.whole main_v0).slice (win0_3.rect t)).set ↔ _
  rw [View.set_slice_whole, Rect.mem_set_unit]
  exact Iff.rfl

/-- Every index of the output is in some point's block: the point of its batch and of its token's group. -/
theorem covered (i : S8x4000x1024.Idx) :
    ∃ t : Fin cfg0.N, (cfg0.win 3).flush t = true ∧ i ∈ ((cfg0.win 3).blk t).view.set := by
  have hi0 : (i 0).val < 8 := (i 0).isLt
  have hi1 : (i 1).val < 4000 := (i 1).isLt
  have hi2 : (i 2).val < 1024 := (i 2).isLt
  obtain ⟨t, ht⟩ := idx_onto ⟨(i 0).val, hi0⟩ ⟨(i 1).val / 800, by omega⟩
  have q0 : win0_3.index t (0 : Fin 3) = (i 0).val := congrFun ht 0
  have q1 : win0_3.index t (1 : Fin 3) = (i 1).val / 800 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 800 ≤ (i 1).val ∧ (i 1).val < win0_3.index t (1 : Fin 3) * 800 + 800; omega
  | ⟨2, _⟩ => show win0_3.index t (2 : Fin 3) * 1024 ≤ (i 2).val ∧ (i 2).val < win0_3.index t (2 : Fin 3) * 1024 + 1024; omega

/-- The output array after the run is the blended norm of the argument arrays. -/
theorem final (c : Dev nD) : (dats m 0 c).arrAt 3 cfg0.N
    = blend (m ((c : Thread nD τ).loc main_arg0)) (m ((c : Thread nD τ).loc main_arg2)) (m ((c : Thread nD τ).loc main_arg3)) :=
  (dats m 0 c).arrAt_eq_of_cover 3 _ (fun t _ => flushed_eq m c t) covered

/-- The idealized kernel's run: the result is the blended norm of the arguments, which end unchanged. -/
theorem run : θ_run (Cert.KernelIdeal.defs (F := Ideal)) (onTc (τ := τ) (Cert.KernelIdeal.main (F := Ideal))) ⟨m, fun _ => 0, ρ⟩ fun r => ∀ c : Dev nD,
      r.2.mem ((c : Thread nD τ).loc main_v0)
        = blend (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run Cert.KernelIdeal.defs _ _).mono (fun r h c => ⟨(h c).1.trans (final m c), (h c).2⟩) (run_blocks m ρ)

end Cert.BlendNorm.Kernel

end
-- ==== Proof.RefValue.lean ====
/-
  The reference program's result, read at an index, is the two-pass spelling of the blended norm.

  The reference forms the norm over each token's features (the mean as the sum over the count, the variance as the
  mean squared deviation, the centred value times the reciprocal root of the variance plus the stabiliser), regroups
  the array's 4000 tokens into 5 groups of 800, forms the same norm over each group's tokens and features together,
  puts the result back in the array's shape, and returns half of one plus half of the other, scaled and shifted per
  feature. Each stage is read here at an index given by its coordinates; the two sums over a group's tokens and
  features are read from the sum's definition by re-indexing the indices that drop to a given (batch, group) through
  their last two coordinates. Token `l` of group `g` is token `g * 800 + l` of the batch, so a token's row of the array
  is its row of its group's block, and the token's moments are that row's.
-/
import proofs.«168838_j57166014710001_2_alg».proof.Proof.BlendSpec
import proofs.«168838_j57166014710001_2_alg».proof.Proof.Gen.ReferenceIdeal.Read
import Idealize.ShloMosaic.Lib.IdealHost
import Idealize.ShloMosaic.Lib.ValueIdxCoords
import Idealize.ShloMosaic.PureOps.Ideal.Laws

noncomputable section

namespace Cert.BlendNorm.Ref

open Idealize.ShloMosaic Idealize.ShloMosaic.ValueIdx Cert.ReferenceIdeal Cert.BlendNorm
open scoped BigOperators

/-! ## A sum over the last two of four axes, read at an index -/

/-- The sum over the last two axes of a rank-4 array, read at a result index: the initial value plus the
    double sum over the two dropped coordinates. -/
theorem reduce23_apply (h : S8x5x800x1024.ReducesTo [2, 3] S8x5) (y : S8x5x800x1024.Idx → EReal) (init : EReal)
    (bb : Fin 8) (g : Fin 5) :
    Ideal.hostReduceAdd h y init (ix2 bb g) = init + ∑ l : Fin 800, ∑ k : Fin 1024, y (ix4 bb g l k) := by
  -- an index that drops to (bb, g) is (bb, g, its third coordinate, its fourth coordinate)
  have key : ∀ i : S8x5x800x1024.Idx, h.drop i = ix2 bb g → ix4 bb g (i 2 : Fin 800) (i 3 : Fin 1024) = i := by
    intro i hi
    funext a
    refine Fin.ext ?_
    match a with
    | ⟨0, _⟩ =>
      have e := h.drop_apply_val_of_eq i (0 : Fin 2) (0 : Fin 4)
      rw [hi] at e; exact e
    | ⟨1, _⟩ =>
      have e := h.drop_apply_val_of_eq i (1 : Fin 2) (1 : Fin 4)
      rw [hi] at e; exact e
    | ⟨2, _⟩ => rfl
    | ⟨3, _⟩ => rfl
  unfold Ideal.hostReduceAdd
  refine congrArg (init + ·) ?_
  rw [← Finset.sum_product']
  refine Finset.sum_nbij' (fun i => ((i 2 : Fin 800), (i 3 : Fin 1024))) (fun p => ix4 bb g p.1 p.2) ?_ ?_ ?_ ?_ ?_
  · intro i _; exact Finset.mem_product.mpr ⟨Finset.mem_univ _, Finset.mem_univ _⟩
  · intro p _
    refine Finset.mem_filter.mpr ⟨Finset.mem_univ _, ?_⟩
    funext a
    refine Fin.ext ?_
    match a with
    | ⟨0, _⟩ => exact h.drop_apply_val_of_eq _ (0 : Fin 2) (0 : Fin 4)
    | ⟨1, _⟩ => exact h.drop_apply_val_of_eq _ (1 : Fin 2) (1 : Fin 4)
  · intro i hi; exact key i (Finset.mem_filter.mp hi).2
  · intro p _; rfl
  · intro i hi; exact congrArg y (key i (Finset.mem_filter.mp hi).2).symm

/-! ## The constants: each broadcast scalar reads its word everywhere -/

theorem v2_eq (i : S8x4000x1.Idx) : Read.val_main_v2 (F := Ideal) i = cntD := Read.val_main_v2_apply i
theorem v9_eq (i : S8x4000x1.Idx) : Read.val_main_v9 (F := Ideal) i = cntD := Read.val_main_v9_apply i
theorem v13_eq (i : S8x4000x1.Idx) : Read.val_main_v13 (F := Ideal) i = eps := Read.val_main_v13_apply i
theorem v21_eq (i : S8x5x1x1.Idx) : Read.val_main_v21 (F := Ideal) i = cntN := Read.val_main_v21_apply i
theorem v28_eq (i : S8x5x1x1.Idx) : Read.val_main_v28 (F := Ideal) i = cntN := Read.val_main_v28_apply i
theorem v32_eq (i : S8x5x1x1.Idx) : Read.val_main_v32 (F := Ideal) i = eps := Read.val_main_v32_apply i
theorem v38_eq (i : S8x4000x1024.Idx) : Read.val_main_v38 (F := Ideal) i = half := Read.val_main_v38_apply i
theorem v40_eq (i : S8x4000x1024.Idx) : Read.val_main_v40 (F := Ideal) i = half := Read.val_main_v40_apply i

/-! ## The token norm, at batch `bb` and token `t` -/

section token

variable (x : (⟨S8x4000x1024, .f32⟩ : BufTy).Contents (Elt Ideal))

/-- A token's mean: the sum of its features over their count. -/
def tokMean (bb : Fin 8) (t : Fin 4000) : EReal := Ideal.div (∑ k : Fin 1024, x (ix3 bb t k)) cntD

/-- A token's variance: the mean squared deviation from its mean. -/
def tokVar (bb : Fin 8) (t : Fin 4000) : EReal :=
  Ideal.div (∑ k : Fin 1024, (x (ix3 bb t k) - tokMean x bb t) * (x (ix3 bb t k) - tokMean x bb t)) cntD

/-- The sum of a token's features. -/
theorem v0_eq (bb : Fin 8) (t : Fin 4000) :
    Read.val_main_v0 (F := Ideal) x (ix2 bb t) = ∑ k : Fin 1024, x (ix3 bb t k) := by
  rw [Read.val_main_v0_apply, Read.val_main_cst_apply, Ideal.ofBits_def, Ideal.ofBits_zero_f32, zero_add]
  refine Finset.sum_congr rfl fun k _ => congrArg x (funext fun a => ?_)
  match a with | ⟨0, _⟩ => rfl | ⟨1, _⟩ => rfl | ⟨2, _⟩ => rfl

/-- The quotient by the feature count is the token's mean. -/
theorem v3_eq (bb : Fin 8) (t : Fin 4000) :
    Read.val_main_v3 (F := Ideal) x (ix3 bb t u0) = tokMean x bb t := by
  rw [Read.val_main_v3_apply, Ideal.hostDivf_def, v2_eq, Read.val_main_v1_apply]
  have e : Read.idx_main_v1 (ix3 bb t u0) = ix2 bb t := funext fun a => by
    match a with | ⟨0, _⟩ => rfl | ⟨1, _⟩ => rfl
  rw [e, v0_eq]; rfl

/-- The mean spread along the features. -/
theorem v4_eq (bb : Fin 8) (t : Fin 4000) (d : Fin 1024) :
    Read.val_main_v4 (F := Ideal) x (ix3 bb t d) = tokMean x bb t := by
  rw [Read.val_main_v4_apply]
  have e : Read.idx_main_v4 (ix3 bb t d) = ix3 bb t u0 := funext fun a => by
    match a with | ⟨0, _⟩ => rfl | ⟨1, _⟩ => rfl | ⟨2, _⟩ => rfl
  rw [e, v3_eq]

/-- The same spread, as the program repeats it. -/
theorem v11_eq (bb : Fin 8) (t : Fin 4000) (d : Fin 1024) :
    Read.val_main_v11 (F := Ideal) x (ix3 bb t d) = tokMean x bb t := by
  rw [Read.val_main_v11_apply]
  have e : Read.idx_main_v11 (ix3 bb t d) = ix3 bb t u0 := funext fun a => by
    match a with | ⟨0, _⟩ => rfl | ⟨1, _⟩ => rfl | ⟨2, _⟩ => rfl
  rw [e, v3_eq]

/-- The squared deviation of one feature. -/
theorem v6_eq (bb : Fin 8) (t : Fin 4000) (d : Fin 1024) :
    Read.val_main_v6 (F := Ideal) x (ix3 bb t d)
      = (x (ix3 bb t d) - tokMean x bb t) * (x (ix3 bb t d) - tokMean x bb t) := by
  rw [Read.val_main_v6_apply, Read.val_main_v5_apply, v4_eq, Ideal.mulf_def, Ideal.subf_def]

/-- The sum of a token's squared deviations. -/
theorem v7_eq (bb : Fin 8) (t : Fin 4000) :
    Read.val_main_v7 (F := Ideal) x (ix2 bb t)
      = ∑ k : Fin 1024, (x (ix3 bb t k) - tokMean x bb t) * (x (ix3 bb t k) - tokMean x bb t) := by
  rw [Read.val_main_v7_apply, Read.val_main_cst_1_apply, Ideal.ofBits_def, Ideal.ofBits_zero_f32, zero_add]
  refine Finset.sum_congr rfl fun k _ => ?_
  have e : Read.idx_main_v7 (ix2 bb t) k = ix3 bb t k := funext fun a => by
    match a with | ⟨0, _⟩ => rfl | ⟨1, _⟩ => rfl | ⟨2, _⟩ => rfl
  rw [e, v6_eq]

/-- The quotient by the feature count is the token's variance. -/
theorem v10_eq (bb : Fin 8) (t : Fin 4000) :
    Read.val_main_v10 (F := Ideal) x (ix3 bb t u0) = tokVar x bb t := by
  rw [Read.val_main_v10_apply, Ideal.hostDivf_def, v9_eq, Read.val_main_v8_apply]
  have e : Read.idx_main_v8 (ix3 bb t u0) = ix2 bb t := funext fun a => by
    match a with | ⟨0, _⟩ => rfl | ⟨1, _⟩ => rfl
  rw [e, v7_eq]; rfl

/-- The token norm of one element. -/
theorem v17_eq (bb : Fin 8) (t : Fin 4000) (d : Fin 1024) :
    Read.val_main_v17 (F := Ideal) x (ix3 bb t d)
      = (x (ix3 bb t d) - tokMean x bb t) * Ideal.rsqrt (tokVar x bb t + eps) := by
  rw [Read.val_main_v17_apply, Read.val_main_v12_apply, v11_eq, Read.val_main_v16_apply]
  have e : Read.idx_main_v16 (ix3 bb t d) = ix3 bb t u0 := funext fun a => by
    match a with | ⟨0, _⟩ => rfl | ⟨1, _⟩ => rfl | ⟨2, _⟩ => rfl
  rw [e, Read.val_main_v15_apply, Read.val_main_v14_apply, v10_eq, v13_eq,
    Ideal.mulf_def, Ideal.subf_def, Ideal.hostUnary_rsqrt_def, Ideal.addf_def]

end token

/-! ## The group norm, at batch `bb`, group `g`, token `l` of the group -/

section group

variable (x : (⟨S8x4000x1024, .f32⟩ : BufTy).Contents (Elt Ideal))

/-- The array regrouped: token `l` of group `g` is token `g * 800 + l` of the batch. -/
theorem v18_eq (bb : Fin 8) (g : Fin 5) (l : Fin 800) (k : Fin 1024) :
    Read.val_main_v18 (F := Ideal) x (ix4 bb g l k) = groupBlock x bb g l k := by
  rw [Read.val_main_v18_apply]
  refine congrArg x (funext fun a => Fin.ext ?_)
  have h0 := bb.isLt; have h1 := g.isLt; have h2 := l.isLt; have h3 := k.isLt
  match a with
  | ⟨0, _⟩ =>
    show (((bb.val * 5 + g.val) * 800 + l.val) * 1024 + k.val) / 4096000 = bb.val; omega
  | ⟨1, _⟩ =>
    show (((bb.val * 5 + g.val) * 800 + l.val) * 1024 + k.val) / 1024 % 4000 = g.val * 800 + l.val; omega
  | ⟨2, _⟩ =>
    show (((bb.val * 5 + g.val) * 800 + l.val) * 1024 + k.val) % 1024 = k.val; omega

/-- The sum of a group's elements. -/
theorem v19_eq (bb : Fin 8) (g : Fin 5) :
    Read.val_main_v19 (F := Ideal) x (ix2 bb g) = ∑ l : Fin 800, ∑ k : Fin 1024, groupBlock x bb g l k := by
  unfold Read.val_main_v19
  rw [hostReduceAdd_apply, reduce23_apply, Read.val_main_cst_4_apply, Ideal.ofBits_def, Ideal.ofBits_zero_f32, zero_add]
  exact Finset.sum_congr rfl fun l _ => Finset.sum_congr rfl fun k _ => v18_eq x bb g l k

/-- The quotient by the group's element count is the group's mean. -/
theorem v22_eq (bb : Fin 8) (g : Fin 5) :
    Read.val_main_v22 (F := Ideal) x (ix4 bb g u0 u0) = blockMean₂ (groupBlock x bb g) := by
  rw [Read.val_main_v22_apply, Ideal.hostDivf_def, v21_eq, Read.val_main_v20_apply]
  have e : Read.idx_main_v20 (ix4 bb g u0 u0) = ix2 bb g := funext fun a => by
    match a with | ⟨0, _⟩ => rfl | ⟨1, _⟩ => rfl
  rw [e, v19_eq]; rfl

/-- The mean spread over the group's tokens and features. -/
theorem v23_eq (bb : Fin 8) (g : Fin 5) (l : Fin 800) (k : Fin 1024) :
    Read.val_main_v23 (F := Ideal) x (ix4 bb g l k) = blockMean₂ (groupBlock x bb g) := by
  rw [Read.val_main_v23_apply]
  have e : Read.idx_main_v23 (ix4 bb g l k) = ix4 bb g u0 u0 := funext fun a => by
    match a with | ⟨0, _⟩ => rfl | ⟨1, _⟩ => rfl | ⟨2, _⟩ => rfl | ⟨3, _⟩ => rfl
  rw [e, v22_eq]

/-- The same spread, as the program repeats it. -/
theorem v30_eq (bb : Fin 8) (g : Fin 5) (l : Fin 800) (k : Fin 1024) :
    Read.val_main_v30 (F := Ideal) x (ix4 bb g l k) = blockMean₂ (groupBlock x bb g) := by
  rw [Read.val_main_v30_apply]
  have e : Read.idx_main_v30 (ix4 bb g l k) = ix4 bb g u0 u0 := funext fun a => by
    match a with | ⟨0, _⟩ => rfl | ⟨1, _⟩ => rfl | ⟨2, _⟩ => rfl | ⟨3, _⟩ => rfl
  rw [e, v22_eq]

/-- The squared deviation of one element from the group's mean. -/
theorem v25_eq (bb : Fin 8) (g : Fin 5) (l : Fin 800) (k : Fin 1024) :
    Read.val_main_v25 (F := Ideal) x (ix4 bb g l k)
      = (groupBlock x bb g l k - blockMean₂ (groupBlock x bb g))
        * (groupBlock x bb g l k - blockMean₂ (groupBlock x bb g)) := by
  rw [Read.val_main_v25_apply, Read.val_main_v24_apply, v18_eq, v23_eq, Ideal.mulf_def, Ideal.subf_def]

/-- The sum of a group's squared deviations. -/
theorem v26_eq (bb : Fin 8) (g : Fin 5) :
    Read.val_main_v26 (F := Ideal) x (ix2 bb g)
      = ∑ l : Fin 800, ∑ k : Fin 1024, (groupBlock x bb g l k - blockMean₂ (groupBlock x bb g))
          * (groupBlock x bb g l k - blockMean₂ (groupBlock x bb g)) := by
  unfold Read.val_main_v26
  rw [hostReduceAdd_apply, reduce23_apply, Read.val_main_cst_6_apply, Ideal.ofBits_def, Ideal.ofBits_zero_f32, zero_add]
  exact Finset.sum_congr rfl fun l _ => Finset.sum_congr rfl fun k _ => v25_eq x bb g l k

/-- The quotient by the group's element count is the group's variance. -/
theorem v29_eq (bb : Fin 8) (g : Fin 5) :
    Read.val_main_v29 (F := Ideal) x (ix4 bb g u0 u0) = blockVar₂ (groupBlock x bb g) := by
  rw [Read.val_main_v29_apply, Ideal.hostDivf_def, v28_eq, Read.val_main_v27_apply]
  have e : Read.idx_main_v27 (ix4 bb g u0 u0) = ix2 bb g := funext fun a => by
    match a with | ⟨0, _⟩ => rfl | ⟨1, _⟩ => rfl
  rw [e, v26_eq]; rfl

/-- The group norm of one element. -/
theorem v36_eq (bb : Fin 8) (g : Fin 5) (l : Fin 800) (k : Fin 1024) :
    Read.val_main_v36 (F := Ideal) x (ix4 bb g l k)
      = (groupBlock x bb g l k - blockMean₂ (groupBlock x bb g))
        * Ideal.rsqrt (blockVar₂ (groupBlock x bb g) + eps) := by
  rw [Read.val_main_v36_apply, Read.val_main_v31_apply, v18_eq, v30_eq, Read.val_main_v35_apply]
  have e : Read.idx_main_v35 (ix4 bb g l k) = ix4 bb g u0 u0 := funext fun a => by
    match a with | ⟨0, _⟩ => rfl | ⟨1, _⟩ => rfl | ⟨2, _⟩ => rfl | ⟨3, _⟩ => rfl
  rw [e, Read.val_main_v34_apply, Read.val_main_v33_apply, v29_eq, v32_eq,
    Ideal.mulf_def, Ideal.subf_def, Ideal.hostUnary_rsqrt_def, Ideal.addf_def]

/-- The group norm put back in the array's own shape. -/
theorem v37_eq (bb : Fin 8) (g : Fin 5) (l : Fin 800) (d : Fin 1024) :
    Read.val_main_v37 (F := Ideal) x (ix3 bb (member g l) d)
      = (groupBlock x bb g l d - blockMean₂ (groupBlock x bb g))
        * Ideal.rsqrt (blockVar₂ (groupBlock x bb g) + eps) := by
  rw [Read.val_main_v37_apply]
  have e : Read.idx_main_v37 (ix3 bb (member g l) d) = ix4 bb g l d := funext fun a => Fin.ext (by
    have h0 := bb.isLt; have h1 := g.isLt; have h2 := l.isLt; have h3 := d.isLt
    match a with
    | ⟨0, _⟩ =>
      show ((bb.val * 4000 + (g.val * 800 + l.val)) * 1024 + d.val) / 4096000 = bb.val; omega
    | ⟨1, _⟩ =>
      show ((bb.val * 4000 + (g.val * 800 + l.val)) * 1024 + d.val) / 819200 % 5 = g.val; omega
    | ⟨2, _⟩ =>
      show ((bb.val * 4000 + (g.val * 800 + l.val)) * 1024 + d.val) / 1024 % 800 = l.val; omega
    | ⟨3, _⟩ =>
      show ((bb.val * 4000 + (g.val * 800 + l.val)) * 1024 + d.val) % 1024 = d.val; omega)
  rw [e, v36_eq]

end group

/-! ## The blend, the scale and the shift -/

section top

variable (x : (⟨S8x4000x1024, .f32⟩ : BufTy).Contents (Elt Ideal)) (w b : (⟨S1024, .f32⟩ : BufTy).Contents (Elt Ideal))

/-- The scale spread along the batches and tokens reads the feature's scale. -/
theorem v44_eq (bb : Fin 8) (t : Fin 4000) (d : Fin 1024) :
    Read.val_main_v44 (F := Ideal) w (ix3 bb t d) = w (ix1 d) := by
  rw [Read.val_main_v44_apply, Read.val_main_v43_apply]
  exact congrArg w (funext fun a => by match a with | ⟨0, _⟩ => rfl)

/-- The shift spread along the batches and tokens reads the feature's shift. -/
theorem v47_eq (bb : Fin 8) (t : Fin 4000) (d : Fin 1024) :
    Read.val_main_v47 (F := Ideal) b (ix3 bb t d) = b (ix1 d) := by
  rw [Read.val_main_v47_apply, Read.val_main_v46_apply]
  exact congrArg b (funext fun a => by match a with | ⟨0, _⟩ => rfl)

/-- The result at token `l` of group `g`: the two-pass spelling over the group's block. A token's row of the
    array is its row of the block, so the token's mean and variance are the row's. -/
theorem ref_at_member (bb : Fin 8) (g : Fin 5) (l : Fin 800) (d : Fin 1024) :
    Read.val_main_v48 (F := Ideal) x w b (ix3 bb (member g l) d)
      = twoPass (groupBlock x bb g) (w (ix1 d)) (b (ix1 d)) l d := by
  rw [Read.val_main_v48_apply, Read.val_main_v45_apply, Read.val_main_v42_apply, Read.val_main_v39_apply,
    Read.val_main_v41_apply, v38_eq, v40_eq, v37_eq, v17_eq, v44_eq, v47_eq,
    Ideal.addf_def, Ideal.mulf_def, Ideal.addf_def, Ideal.mulf_def, Ideal.mulf_def]
  rfl

end top

/-- THE REFERENCE'S RESULT AT AN INDEX is the two-pass spelling of the blended norm over the token's group. -/
theorem ref_at (x : (⟨S8x4000x1024, .f32⟩ : BufTy).Contents (Elt Ideal)) (w b : (⟨S1024, .f32⟩ : BufTy).Contents (Elt Ideal))
    (bb : Fin 8) (t : Fin 4000) (d : Fin 1024) :
    Cert.ReferenceIdeal.Read.val_main_v48 (F := Ideal) x w b (ix3 bb t d)
      = twoPass (groupBlock x bb (groupOf t)) (w (ix1 d)) (b (ix1 d)) (placeOf t) d := by
  have h := ref_at_member x w b bb (groupOf t) (placeOf t) d
  rwa [member_groupOf_placeOf] at h

end Cert.BlendNorm.Ref

end
-- ==== Proof.LibRealValued.lean ====
/-
  Extended reals that are real numbers, and arrays of them.

  At the exact instance a float is an extended real. Most algebraic laws that a
  kernel and its reference differ by (here: how a log-sum-exp shift is
  re-associated) hold for real numbers and fail at an infinity, so a value proof
  first has to know that the numbers it meets are real. This module fixes the
  predicate `IsReal x` ("x is the coercion of a real"), its array form
  `AllReal v`, and their closure under the exact operations: sums, differences,
  products, finite sums, maxima over a nonempty finite set, the reciprocal of a
  nonzero real, the reciprocal square root of a positive real and the exponential.

  It also holds the one law used at the end: for a real `m`,
  `a - (m + L) = (a - m) - L` for ALL extended reals `a` and `L`. (For `m = ⊤`
  the two sides differ: with `L = ⊥` the left is `⊤` and the right `⊥`.)
-/
import Mathlib
import Idealize.ShloMosaic.PureOps.Ideal
import Idealize.ShloMosaic.PureOps.Ideal.Laws

noncomputable section

namespace Cert.RealValued

open Idealize.ShloMosaic

/-- `x` is a real number (neither infinity). -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩
theorem isReal_zero : IsReal (0 : EReal) := ⟨0, by simp⟩
theorem isReal_one : IsReal (1 : EReal) := ⟨1, by simp⟩
theorem isPos_one : IsPos (1 : EReal) := ⟨1, one_pos, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_max {x y : EReal} (hx : IsReal x) (hy : IsReal y) : IsReal (max x y) := by
  rcases le_total x y with h | h
  · rwa [max_eq_right h]
  · rwa [max_eq_left h]

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of a nonnegative real and finitely many nonnegative reals, plus a positive real, is positive: stated
    in the one form used (a count of ones plus one). -/
theorem IsPos.add_of_nonneg {x y : EReal} (hx : ∃ r : ℝ, 0 ≤ r ∧ x = (r : EReal)) (hy : IsPos y) : IsPos (x + y) := by
  obtain ⟨a, ha, rfl⟩ := hx; obtain ⟨b, hb, rfl⟩ := hy
  exact ⟨a + b, by linarith, (EReal.coe_add a b).symm⟩

/-- A finite sum of ones, from zero, is a nonnegative real. -/
theorem nonneg_zero_add_sum_one {ι : Type} (s : Finset ι) :
    ∃ r : ℝ, 0 ≤ r ∧ (0 : EReal) + ∑ _i ∈ s, (1 : EReal) = (r : EReal) := by
  refine ⟨(s.card : ℝ), Nat.cast_nonneg _, ?_⟩
  rw [Finset.sum_const, zero_add]
  simp [nsmul_eq_mul]

/-- The maximum of `⊥` and the values of a real-valued function over a NONEMPTY finite set is a real number. -/
theorem isReal_fold_max {ι : Type} (s : Finset ι) (f : ι → EReal) (hs : s.Nonempty) (h : ∀ i ∈ s, IsReal (f i)) :
    IsReal (s.fold max ⊥ f) := by
  classical
  induction s using Finset.induction_on with
  | empty => exact absurd hs (by simp)
  | insert a s ha ih =>
    rw [Finset.fold_insert ha]
    rcases s.eq_empty_or_nonempty with hse | hsn
    · subst hse
      rw [Finset.fold_empty, max_eq_left bot_le]
      exact h a (Finset.mem_insert_self a _)
    · exact isReal_max (h a (Finset.mem_insert_self a s)) (ih hsn fun i hi => h i (Finset.mem_insert_of_mem hi))

/-- The reciprocal square root of a positive real is a positive real. -/
theorem IsPos.rsqrt {x : EReal} (hx : IsPos x) : IsPos (Ideal.rsqrt x) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- One over a positive real is a real. -/
theorem IsPos.one_div {x : EReal} (hx : IsPos x) : IsReal (Ideal.div 1 x) := by
  obtain ⟨r, hr, rfl⟩ := hx
  rw [Ideal.div_coe hr.ne']
  exact isReal_one.mul (isReal_coe _)

/-- The exponential of a real is a real. -/
theorem IsReal.exp {x : EReal} (hx : IsReal x) : IsReal (Ideal.exp x) := by
  obtain ⟨r, rfl⟩ := hx; exact ⟨Real.exp r, Ideal.exp_coe r⟩

/-- The pattern of `-∞` denotes the bottom element. -/
theorem ofBits_neg_inf : Ideal.ofBits .f32 0xFF800000#32 = ⊥ := by simp [Ideal.ofBits, Ideal.ieee]

/-- THE LAW that joins the two spellings of a log-softmax: a REAL shift `m` moves across the difference,
    whatever `a` and `L` are. -/
theorem sub_add_real (a L : EReal) (m : ℝ) : a - ((m : EReal) + L) = (a - (m : EReal)) - L := by
  rw [sub_eq_add_neg, sub_eq_add_neg, sub_eq_add_neg,
    EReal.neg_add (Or.inl (EReal.coe_ne_bot m)) (Or.inl (EReal.coe_ne_top m)), sub_eq_add_neg, add_assoc]

/-- Every entry of the array is a real number. -/
def AllReal {ι : Type} (v : ι → EReal) : Prop := ∀ i, IsReal (v i)

/-- Every entry of the array is a positive real number. -/
def AllPos {ι : Type} (v : ι → EReal) : Prop := ∀ i, IsPos (v i)

theorem AllPos.allReal {ι : Type} {v : ι → EReal} (h : AllPos v) : AllReal v := fun i => (h i).isReal

/-- Reading a real-valued array through any index function gives a real-valued array (a broadcast, a reshape, a
    slice, a gather: each result element IS one operand element). -/
theorem AllReal.comp {ι κ : Type} {v : ι → EReal} (h : AllReal v) (g : κ → ι) : AllReal (fun j => v (g j)) :=
  fun j => h (g j)

theorem AllPos.comp {ι κ : Type} {v : ι → EReal} (h : AllPos v) (g : κ → ι) : AllPos (fun j => v (g j)) :=
  fun j => h (g j)

end Cert.RealValued

end
-- ==== Proof.BlendLaw.lean ====
/-
  The one-pass and the two-pass spelling of the blended norm agree on real-valued data.

  Both spellings are built from a mean and a variance, once for a row (one token's features) and once
  for the whole block (a group's tokens and features together), and a reciprocal square root of the
  variance plus a positive stabiliser.

  * The means agree outright: a quotient by the count c is the product with the real number 1 / c, and the
    one-pass spelling multiplies by exactly that number (1 / 1024 for a row, 1 / 819200 for the block).
  * The variances agree as REAL numbers: with n the number of terms and m = (sum x) / n,
      (sum (x - m)^2) / n = (sum x^2) / n - m^2,
    because sum (x - m)^2 = sum x^2 - 2 m (sum x) + n m^2 and sum x = n m. For a row n is the number of
    features, 1024; for the block the double sum is a single sum over the pairs (token, feature), of which
    there are 800 * 1024 = 819200.
  * The two-pass variance is a mean of squares, so it is nonnegative; the stabiliser is positive; the
    argument of the reciprocal square root is therefore a positive real in both spellings (it is the same
    extended real), and the reciprocal square root of it is a real number.
  * With the datum, the two means, the two reciprocal standard deviations, one half, the weight and the
    bias all real, the remaining identity
      (x (h r + h s) - (h m r + h M s)) w + b = (h ((x - M) s) + h ((x - m) r)) w + b
    is an identity of the field of real numbers.

  The laws used fail at an infinity (a product does not distribute over a sum there), which is why every
  quantity is first shown to be the image of a real number and all algebra is done in the reals.
-/
import proofs.«168838_j57166014710001_2_alg».proof.Proof.BlendSpec
import proofs.«168838_j57166014710001_2_alg».proof.Proof.LibRealValued

noncomputable section

namespace Cert.BlendNorm

open Cert.RealValued Idealize.ShloMosaic

/-! ### The literals -/

private theorem half_eq : half = ((1 / 2 : ℝ) : EReal) := by
  simp [half, Ideal.ofBits, Ideal.ieee, -EReal.coe_mul]; norm_num

private theorem invD_eq : invD = ((1 / 1024 : ℝ) : EReal) := by
  simp [invD, Ideal.ofBits, Ideal.ieee, -EReal.coe_mul]; norm_num

private theorem cntD_eq : cntD = ((1024 : ℝ) : EReal) := by
  simp [cntD, Ideal.ofBits, Ideal.ieee, -EReal.coe_mul]; norm_num

private theorem cntN_eq : cntN = ((819200 : ℝ) : EReal) := by
  simp [cntN, Ideal.ofBits, Ideal.ieee, -EReal.coe_mul]; norm_num

/-- The stabiliser is a positive real number. -/
private theorem eps_pos : ∃ e : ℝ, 0 < e ∧ eps = (e : EReal) := by
  simp [eps, Ideal.ofBits, Ideal.ieee, -EReal.coe_mul]

/-! ### Sums of real numbers -/

/-- A finite sum of images of real numbers is the image of the real sum. -/
private theorem coe_sum {α : Type} (s : Finset α) (f : α → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same, the terms being given as extended reals known to be images of real numbers. -/
private theorem sum_eq_coe {α : Type} (s : Finset α) (F : α → EReal) (f : α → ℝ)
    (h : ∀ i ∈ s, F i = ((f i : ℝ) : EReal)) : ∑ i ∈ s, F i = ((∑ i ∈ s, f i : ℝ) : EReal) := by
  rw [Finset.sum_congr rfl h]; exact coe_sum s f

/-! ### The variance identity in the reals -/

/-- For `n` real numbers with mean `m`, the mean squared deviation is the mean square less `m` squared. -/
private theorem real_var {α : Type} [Fintype α] (n : ℝ) (hn : (Fintype.card α : ℝ) = n) (hn0 : n ≠ 0)
    (f : α → ℝ) :
    (∑ k, (f k - (∑ j, f j) * (1 / n)) * (f k - (∑ j, f j) * (1 / n))) * (1 / n)
      = (∑ k, f k * f k) * (1 / n) - ((∑ j, f j) * (1 / n)) * ((∑ j, f j) * (1 / n)) := by
  have h1 : ∀ m : ℝ, ∑ k, (f k - m) * (f k - m)
      = (∑ k, f k * f k) - 2 * m * (∑ k, f k) + n * (m * m) := by
    intro m
    have h2 : ∀ k, (f k - m) * (f k - m) = f k * f k - 2 * m * f k + m * m := fun k => by ring
    rw [Finset.sum_congr rfl (fun k _ => h2 k), Finset.sum_add_distrib, Finset.sum_sub_distrib,
      ← Finset.mul_sum, Finset.sum_const, Finset.card_univ, nsmul_eq_mul, hn]
  rw [h1]
  field_simp
  ring

/-- A mean of squares is nonnegative. -/
private theorem real_var_nonneg {α : Type} [Fintype α] (n : ℝ) (hn : 0 < n) (f : α → ℝ) (m : ℝ) :
    0 ≤ (∑ k, (f k - m) * (f k - m)) * (1 / n) :=
  mul_nonneg (Finset.sum_nonneg fun k _ => mul_self_nonneg _) (by positivity)

section block

variable {ι κ : Type} [Fintype ι] [Fintype κ]

/-- The block's variance identity: the double sum is a single sum over the 800 * 1024 pairs. -/
private theorem real_var_block (hL : Fintype.card ι = 800) (hD : Fintype.card κ = 1024) (x : ι → κ → ℝ) :
    (∑ l, ∑ k, (x l k - (∑ i, ∑ j, x i j) * (1 / 819200)) * (x l k - (∑ i, ∑ j, x i j) * (1 / 819200)))
        * (1 / 819200)
      = (∑ l, ∑ k, x l k * x l k) * (1 / 819200)
        - ((∑ i, ∑ j, x i j) * (1 / 819200)) * ((∑ i, ∑ j, x i j) * (1 / 819200)) := by
  have h := real_var (α := ι × κ) 819200 (by rw [Fintype.card_prod, hL, hD]; norm_num) (by norm_num)
    (fun p => x p.1 p.2)
  simp only [Fintype.sum_prod_type] at h
  exact h

private theorem real_var_block_nonneg (x : ι → κ → ℝ) (m : ℝ) :
    0 ≤ (∑ l, ∑ k, (x l k - m) * (x l k - m)) * (1 / 819200) :=
  mul_nonneg (Finset.sum_nonneg fun l _ => Finset.sum_nonneg fun k _ => mul_self_nonneg _) (by norm_num)

/-- A real block seen as a block of extended reals. -/
private abbrev lift (x : ι → κ → ℝ) : ι → κ → EReal := fun l k => ((x l k : ℝ) : EReal)

/-! ### A row -/

private theorem rowSum_lift (x : ι → κ → ℝ) (l : ι) :
    rowSum (lift x) l = ((∑ k, x l k : ℝ) : EReal) := coe_sum _ _

private theorem rowSumSq_lift (x : ι → κ → ℝ) (l : ι) :
    rowSumSq (lift x) l = ((∑ k, x l k * x l k : ℝ) : EReal) :=
  sum_eq_coe _ _ _ fun _ _ => (EReal.coe_mul _ _).symm

private theorem rowMean₁_lift (x : ι → κ → ℝ) (l : ι) :
    rowMean₁ (lift x) l = (((∑ k, x l k) * (1 / 1024) : ℝ) : EReal) := by
  unfold rowMean₁; rw [rowSum_lift, invD_eq, ← EReal.coe_mul]

private theorem rowMean₂_lift (x : ι → κ → ℝ) (l : ι) :
    rowMean₂ (lift x) l = (((∑ k, x l k) * (1 / 1024) : ℝ) : EReal) := by
  unfold rowMean₂
  rw [cntD_eq, Ideal.div_coe (by norm_num : (1024 : ℝ) ≠ 0), coe_sum, ← EReal.coe_mul]

private theorem rowVar₂_lift (x : ι → κ → ℝ) (l : ι) :
    rowVar₂ (lift x) l
      = (((∑ k, (x l k - (∑ j, x l j) * (1 / 1024)) * (x l k - (∑ j, x l j) * (1 / 1024))) * (1 / 1024) : ℝ)
          : EReal) := by
  unfold rowVar₂
  rw [rowMean₂_lift, cntD_eq, Ideal.div_coe (by norm_num : (1024 : ℝ) ≠ 0),
    sum_eq_coe Finset.univ _ (fun k => (x l k - (∑ j, x l j) * (1 / 1024)) * (x l k - (∑ j, x l j) * (1 / 1024)))
      (fun k _ => by rw [← EReal.coe_sub, ← EReal.coe_mul]),
    ← EReal.coe_mul]

/-- The argument of the one-pass reciprocal square root, less the stabiliser, is the two-pass variance. -/
private theorem rowArg_eq (hD : Fintype.card κ = 1024) (x : ι → κ → ℝ) (l : ι) :
    rowSumSq (lift x) l * invD - rowMean₁ (lift x) l * rowMean₁ (lift x) l = rowVar₂ (lift x) l := by
  rw [rowSumSq_lift, rowMean₁_lift, rowVar₂_lift, invD_eq, ← EReal.coe_mul, ← EReal.coe_mul, ← EReal.coe_sub,
    real_var 1024 (by rw [hD]; norm_num) (by norm_num) (fun k => x l k)]

/-- The two reciprocal standard deviations of a row are one real number. -/
private theorem row_rstd (hD : Fintype.card κ = 1024) (x : ι → κ → ℝ) (l : ι) :
    ∃ ρ : ℝ, rowRstd₁ (lift x) l = (ρ : EReal) ∧ Ideal.rsqrt (rowVar₂ (lift x) l + eps) = (ρ : EReal) := by
  have hpos : IsPos (rowVar₂ (lift x) l + eps) :=
    IsPos.add_of_nonneg ⟨_, real_var_nonneg 1024 (by norm_num) (fun k => x l k) _, rowVar₂_lift x l⟩ eps_pos
  obtain ⟨ρ, _, hρ⟩ := hpos.rsqrt
  refine ⟨ρ, ?_, hρ⟩
  unfold rowRstd₁
  rw [rowArg_eq hD, hρ]

/-! ### The block -/

private theorem blockSum_lift (x : ι → κ → ℝ) :
    blockSum (lift x) = ((∑ l, ∑ k, x l k : ℝ) : EReal) :=
  sum_eq_coe _ _ _ fun l _ => rowSum_lift x l

private theorem blockSumSq_lift (x : ι → κ → ℝ) :
    blockSumSq (lift x) = ((∑ l, ∑ k, x l k * x l k : ℝ) : EReal) :=
  sum_eq_coe _ _ _ fun l _ => rowSumSq_lift x l

private theorem blockMean₁_lift (x : ι → κ → ℝ) :
    blockMean₁ (lift x) = (((∑ l, ∑ k, x l k) * (1 / 819200) : ℝ) : EReal) := by
  unfold blockMean₁; rw [blockSum_lift, ← EReal.coe_mul]

private theorem blockMean₂_lift (x : ι → κ → ℝ) :
    blockMean₂ (lift x) = (((∑ l, ∑ k, x l k) * (1 / 819200) : ℝ) : EReal) := by
  unfold blockMean₂
  rw [cntN_eq, Ideal.div_coe (by norm_num : (819200 : ℝ) ≠ 0),
    sum_eq_coe Finset.univ _ (fun l => ∑ k, x l k) (fun l _ => coe_sum _ _), ← EReal.coe_mul]

private theorem blockVar₂_lift (x : ι → κ → ℝ) :
    blockVar₂ (lift x)
      = (((∑ l, ∑ k, (x l k - (∑ i, ∑ j, x i j) * (1 / 819200)) * (x l k - (∑ i, ∑ j, x i j) * (1 / 819200)))
            * (1 / 819200) : ℝ) : EReal) := by
  unfold blockVar₂
  rw [blockMean₂_lift, cntN_eq, Ideal.div_coe (by norm_num : (819200 : ℝ) ≠ 0),
    sum_eq_coe Finset.univ _
      (fun l => ∑ k, (x l k - (∑ i, ∑ j, x i j) * (1 / 819200)) * (x l k - (∑ i, ∑ j, x i j) * (1 / 819200)))
      (fun l _ => sum_eq_coe Finset.univ _ _ (fun k _ => by rw [← EReal.coe_sub, ← EReal.coe_mul])),
    ← EReal.coe_mul]

private theorem blockArg_eq (hL : Fintype.card ι = 800) (hD : Fintype.card κ = 1024) (x : ι → κ → ℝ) :
    blockSumSq (lift x) * invN - blockMean₁ (lift x) * blockMean₁ (lift x) = blockVar₂ (lift x) := by
  rw [blockSumSq_lift, blockMean₁_lift, blockVar₂_lift, ← EReal.coe_mul, ← EReal.coe_mul, ← EReal.coe_sub,
    real_var_block hL hD x]

/-- The two reciprocal standard deviations of the block are one real number. -/
private theorem block_rstd (hL : Fintype.card ι = 800) (hD : Fintype.card κ = 1024) (x : ι → κ → ℝ) :
    ∃ ρ : ℝ, blockRstd₁ (lift x) = (ρ : EReal) ∧ Ideal.rsqrt (blockVar₂ (lift x) + eps) = (ρ : EReal) := by
  have hpos : IsPos (blockVar₂ (lift x) + eps) :=
    IsPos.add_of_nonneg ⟨_, real_var_block_nonneg x _, blockVar₂_lift x⟩ eps_pos
  obtain ⟨ρ, _, hρ⟩ := hpos.rsqrt
  refine ⟨ρ, ?_, hρ⟩
  unfold blockRstd₁
  rw [blockArg_eq hL hD, hρ]

end block

/-! ### The law -/

/-- On real-valued data, with a real weight and a real bias, the two spellings of the blended norm agree. -/
theorem onePass_eq_twoPass {ι κ : Type} [Fintype ι] [Fintype κ] (hL : Fintype.card ι = 800)
    (hD : Fintype.card κ = 1024) (X : ι → κ → EReal) (w b : EReal) (hX : ∀ l k, IsReal (X l k))
    (hw : IsReal w) (hb : IsReal b) (l : ι) (d : κ) :
    onePass X w b l d = twoPass X w b l d := by
  obtain ⟨x, rfl⟩ : ∃ x : ι → κ → ℝ, X = lift x :=
    ⟨fun l k => (hX l k).choose, funext fun l => funext fun k => (hX l k).choose_spec⟩
  obtain ⟨wr, rfl⟩ := hw
  obtain ⟨br, rfl⟩ := hb
  obtain ⟨ρr, hr₁, hr₂⟩ := row_rstd hD x l
  obtain ⟨ρb, hb₁, hb₂⟩ := block_rstd hL hD x
  unfold onePass twoPass
  rw [hr₁, hb₁, hr₂, hb₂, rowMean₁_lift, rowMean₂_lift, blockMean₁_lift, blockMean₂_lift, half_eq]
  simp only [lift, ← EReal.coe_mul, ← EReal.coe_add, ← EReal.coe_sub]
  congr 1
  ring

end Cert.BlendNorm

end
-- ==== Proof.Bridge.lean ====
/-
  On real-valued arguments the reference's result array is the blended norm of its arguments.

  Read at batch bb, token t and feature d the reference's result is the two-pass spelling over the block of the
  token's group; the blended norm there is the one-pass spelling over the same block; and the two spellings
  agree when every entry of the input, of the weight and of the bias is a real number.
-/
import proofs.«168838_j57166014710001_2_alg».proof.Proof.RefValue
import proofs.«168838_j57166014710001_2_alg».proof.Proof.BlendLaw

noncomputable section

namespace Cert.BlendNorm

open Cert.RealValued Idealize.ShloMosaic Idealize.ShloMosaic.ValueIdx

/-- The reference's result, as an array, is `blend` of real-valued arguments. -/
theorem ref_eq_blend (x : (⟨3, ![8, 4000, 1024]⟩ : Shape).Idx → EReal) (w b : (⟨1, ![1024]⟩ : Shape).Idx → EReal)
    (hx : AllReal x) (hw : AllReal w) (hb : AllReal b) :
    Cert.ReferenceIdeal.Read.val_main_v48 (F := Ideal) x w b = blend x w b := by
  funext i
  obtain ⟨bb, t, d, rfl⟩ : ∃ (bb : Fin 8) (t : Fin 4000) (d : Fin 1024), i = ix3 bb t d := ⟨i 0, i 1, i 2, eq_ix3 i⟩
  rw [Ref.ref_at, blend_ix3]
  exact (onePass_eq_twoPass (Fintype.card_fin 800) (Fintype.card_fin 1024) _ _ _ (fun l k => hx _) (hw _) (hb _) _ _).symm

end Cert.BlendNorm

end
-- ==== Proof.FiniteArgs.lean ====
/-
  Finite inputs are real numbers.

  The precondition says, of each of the three float arrays, that the absolute value of every entry is
  below +∞, and joins the three statements by "and". At the exact instance an entry is an extended
  real x, its absolute value is max x (-x), and the pattern of +∞ denotes ⊤. Now max x (-x) < ⊤
  excludes x = ⊤ (then max x (-x) = ⊤) and x = ⊥ (then -x = ⊤), so x is a real number.
-/
import proofs.«168838_j57166014710001_2_alg».proof.Pre_finite_inputs
import proofs.«168838_j57166014710001_2_alg».proof.Proof.LibRealValued
import Idealize.ShloMosaic.Lib.ReduceAll
import Idealize.ShloMosaic.PureOps.Ideal.Laws

noncomputable section

namespace Cert.BlendNorm

open Idealize.ShloMosaic Cert.RealValued

/-- The pattern of +∞ denotes the top element. -/
theorem ofBits_pos_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- The shape of a scalar has one index. -/
instance subsingleton_scalar_idx : Subsingleton Cert.Pre_finite_inputs.S_.Idx :=
  ⟨fun a b => funext fun d => d.elim0⟩

/-- "Every entry's absolute value is below +∞", as the conjunction over all entries of the comparison
    with the broadcast pattern of +∞, gives that every entry is a real number. -/
theorem allReal_of_all_abs_lt {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf v)
            (broadcastInDim s ![] hb (constant Cert.Pre_finite_inputs.S_ .f32 0x7F800000#32)))
          (constantI Cert.Pre_finite_inputs.S_ 1 1#1) hr hu j = 1#1) : AllReal v := by
  intro i
  have hi := Host.reduce_andi_all _ _ hr hu j e i
  refine isReal_of_abs_lt_top (v i) ?_
  rw [← ofBits_pos_inf]
  exact hi

theorem allReal_of_finite_inputs [Cert.Pre_finite_inputs.Facts]
    (x : FVec Ideal Cert.Pre_finite_inputs.S8x4000x1024 .f32) (mask : IVec Cert.Pre_finite_inputs.S5x800 32)
    (w b : FVec Ideal Cert.Pre_finite_inputs.S1024 .f32)
    (h : Cert.Pre_finite_inputs.fn (F := Ideal) x mask w b = fun _ => 1#1) :
    AllReal x ∧ AllReal w ∧ AllReal b := by
  have e := congrFun h (fun a => a.elim0 : Cert.Pre_finite_inputs.S_.Idx)
  dsimp only [Cert.Pre_finite_inputs.fn] at e
  obtain ⟨e12, e3⟩ := IntOp.andi_eq_one.1 e
  obtain ⟨e1, e2⟩ := IntOp.andi_eq_one.1 e12
  exact ⟨allReal_of_all_abs_lt x _ _ _ _ e1, allReal_of_all_abs_lt w _ _ _ _ e2,
    allReal_of_all_abs_lt b _ _ _ _ e3⟩

end Cert.BlendNorm

end
-- ==== Proof.lean ====
/-
  The certificate: a Pallas kernel that normalises each token over its features and each group of 800 tokens over
  its tokens and features together, blends the two norms half and half, scales by a weight and shifts by a bias,
  against the jnp reference that does the same in two passes.

  The kernel takes the moments from the sums of x and of x * x and blends the scales and shifts before it centres;
  the reference centres first and takes the mean squared deviation. On real numbers the two agree (the variance is
  the mean square less the squared mean; a product distributes over a sum), and the precondition makes every entry
  of the input, the weight and the bias a real number. The kernel's reciprocal of a group's element count, 819200, is
  named and read as the exact rational, which is what the reference's quotient by 819200 computes.

  The three frames are generated runs; the idealization's two ledger entries are the named constant's statement; the
  algebraic claim sets the kernel's run (its result array is `blend` of the arguments) beside the reference's run (its
  result is the two-pass spelling, which on real-valued arguments is `blend` too).
-/
import proofs.«168838_j57166014710001_2_alg».proof.Defs
import proofs.«168838_j57166014710001_2_alg».proof.Proof.Gen.Kernel
import proofs.«168838_j57166014710001_2_alg».proof.Proof.Gen.Kernel.Skeleton
import proofs.«168838_j57166014710001_2_alg».proof.Proof.Gen.Kernel.Launch
import proofs.«168838_j57166014710001_2_alg».proof.Proof.Gen.Kernel.Points
import proofs.«168838_j57166014710001_2_alg».proof.Proof.Gen.Kernel.Frame
import proofs.«168838_j57166014710001_2_alg».proof.Proof.Gen.KernelIdeal
import proofs.«168838_j57166014710001_2_alg».proof.Proof.Gen.KernelIdeal.Skeleton
import proofs.«168838_j57166014710001_2_alg».proof.Proof.Gen.KernelIdeal.Launch
import proofs.«168838_j57166014710001_2_alg».proof.Proof.Gen.KernelIdeal.Points
import proofs.«168838_j57166014710001_2_alg».proof.Proof.Gen.KernelIdeal.Frame
import proofs.«168838_j57166014710001_2_alg».proof.Proof.Gen.ReferenceIdeal
import proofs.«168838_j57166014710001_2_alg».proof.Proof.Gen.Pre_finite_inputs
import proofs.«168838_j57166014710001_2_alg».proof.Proof.Gen.ReferenceIdeal.Run
import proofs.«168838_j57166014710001_2_alg».proof.Proof.Gen.ReferenceIdeal.Read
import proofs.«168838_j57166014710001_2_alg».proof.Proof.KernelValue
import proofs.«168838_j57166014710001_2_alg».proof.Proof.Bridge
import proofs.«168838_j57166014710001_2_alg».proof.Proof.FiniteArgs
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's two entries are one statement: the table gives the name the value 1/819200, and the printed
    constant is that value at the exact instance. -/
theorem preserves : Cert.preserves_Kernel_KernelIdeal :=
  ⟨IdealRules.named_const.statement Cert.KernelIdeal.κ "inv_819200" .f32 0x35A3D70A#32 ((1 / 819200 : ℝ) : EReal) rfl,
   IdealRules.named_const.statement Cert.KernelIdeal.κ "inv_819200" .f32 0x35A3D70A#32 ((1 / 819200 : ℝ) : EReal) rfl⟩

/-- Both programs end with the blended norm of the arguments as their result. -/
theorem algebraic : Cert.algebraic_KernelIdeal_ReferenceIdeal := by
  intro m ρ m' ρ' hpre hagree
  refine ⟨fun c => Cert.BlendNorm.blend (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.BlendNorm.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hb⟩ := Cert.BlendNorm.allReal_of_finite_inputs _ _ _ _ (hpre c)
  rw [Cert.ReferenceIdeal.Read.val_main_v48_eq, (hagree c).1, (hagree c).2.2.1, (hagree c).2.2.2]
  exact Cert.BlendNorm.ref_eq_blend _ _ _ hx hw hb

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
